-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S8x8x8192 : Shape := ⟨3, ![8, 8, 8192]⟩
abbrev S1024x1024 : Shape := ⟨2, ![1024, 1024]⟩
abbrev S1024x1 : Shape := ⟨2, ![1024, 1]⟩
abbrev S1x8x8192 : Shape := ⟨3, ![1, 8, 8192]⟩
abbrev S1x1024 : Shape := ⟨2, ![1, 1024]⟩
abbrev S1024 : Shape := ⟨1, ![1024]⟩
abbrev S8x1024 : Shape := ⟨2, ![8, 1024]⟩
abbrev S1x8x1024 : Shape := ⟨3, ![1, 8, 1024]⟩
abbrev S8x1x8192 : Shape := ⟨3, ![8, 1, 8192]⟩
abbrev S8x8192 : Shape := ⟨2, ![8, 8192]⟩
abbrev S_ : Shape := ⟨0, ![]⟩
abbrev S8192 : Shape := ⟨1, ![8192]⟩

abbrev nBuf : Space → Nat
  | .hbm => 18
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x1, .f32⟩
  | .hbm, ⟨2, _⟩ => ⟨S8x8x8192, .f32⟩
  | .hbm, ⟨3, _⟩ => ⟨S8192x1, .f32⟩
  | .hbm, ⟨4, _⟩ => ⟨S8x1x8192, .f32⟩
  | .hbm, ⟨5, _⟩ => ⟨S8x8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1x8x8192, .f32⟩
  | .local _ .vmem, ⟨5, _⟩ => ⟨S1x8x8192, .f32⟩
  | .local _ .vmem, ⟨6, _⟩ => ⟨S1024x1, .f32⟩
  | .local _ .vmem, ⟨7, _⟩ => ⟨S1024x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32_16 : BitVec 32 := 1024#32
  let v36 : BitVec 32 := Scalar.muli arg1 c1024_i32_16
  v36
def k0_off1 (i : grid0.Coords) : Fin 3 → Nat :=
  let c0_17 : Index := 0#32
  let c0_18 : Index := 0#32
  let arg1 : BitVec 32 := BitVec.ofNat 32 (i 1).val
  let c1024_i32_16 : BitVec 32 := 1024#32
  let v36 : BitVec 32 := Scalar.muli arg1 c1024_i32_16
  let v37 : BitVec 32 := v36
  let v41 : Index := Scalar.indexCast v37
  ![0, 0, v41.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  inb_S1x8x8192_S1x8x8192_0_0_0 : ∀ a, (![0, 0, 0] : Fin 3 → Nat) a + S1x8x8192.size a ≤ S1x8x8192.size a
  h_S1x8x8192 : 0 < S1x8x8192.numel
  shapeCasts_S1024x1_S1024x1 : S1024x1.ShapeCasts S1024x1
  shapeCasts_S1x1024_S1x1024 : S1x1024.ShapeCasts S1x1024
  broadcasts_S1x1024_S8x1024 : S1x1024.Broadcasts S8x1024
  shapeCasts_S8x1024_S1x8x1024 : S8x1024.ShapeCasts S1x8x1024
  h_S1x8x1024 : 0 < S1x8x1024.numel
  shapeCasts_S1x8x1024_S1x8x1024 : S1x8x1024.ShapeCasts S1x8x1024
  slices_S8x8x8192_S8x1x8192_0_0_0 : S8x8x8192.Slices ![0, 0, 0] S8x1x8192
  shapeCasts_S8x1x8192_S8x8192 : S8x1x8192.ShapeCasts S8x8192
  reducesTo_S8x8192_S8192_d0 : S8x8192.ReducesTo [0] S8192
  h_S_ : 0 < S_.numel
  shapeCasts_S8192x1_S8192 : S8192x1.ShapeCasts S8192
  reducesTo_S8192_S_d0 : S8192.ReducesTo [0] S_
  hrank0 : 0 < grid0.rank
  k0_mult1_dvd : ∀ i : grid0.Coords, 128 ∣ (k0_mult1 i).toNat
  k0_off1_inb : ∀ i : grid0.Coords, ∀ a, (k0_off1 i) a + S1x8x1024.size a ≤ S1x8x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x8192.size a ≤ S8x8x8192.size a
  hwx0_2 : ∀ i : grid0.Coords, EltTy.bits .f32 = 32 ∨ (Rect.block (s := S8x8x8192) S1x8x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩

abbrev nBuf : Space → Nat
  | .hbm => 56
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x1, .i32⟩
  | .hbm, ⟨18, _⟩ => ⟨S8192x2, .i32⟩
  | .hbm, ⟨19, _⟩ => ⟨S8192, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x1, .i32⟩
  | .hbm, ⟨36, _⟩ => ⟨S8192x2, .i32⟩
  | .hbm, ⟨37, _⟩ => ⟨S_, .f32⟩
  | .hbm, ⟨38, _⟩ => ⟨S8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_c_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_5 : Ref sig .tc := ⟨.hbm, 27, rfl⟩
abbrev main_v20 : Ref sig .tc := ⟨.hbm, 28, rfl⟩
abbrev main_v21 : Ref sig .tc := ⟨.hbm, 29, rfl⟩
abbrev main_c_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192x8192_S8192_d0 : S8192x8192.ReducesTo [0] S8192
  reducesTo_S8192_S_d0 : S8192.ReducesTo [0] S_
  gather_S8192x8192_S8192x2_S8192_n_01_n_n_01_1_11_wf : GatherDims.WF S8192x8192 S8192x2 S8192 [] [0, 1] [] [0, 1] [] 1 ![1, 1]
  scatter_S8192x8192_S8192x2_S8192_n_01_01_1_wf : ScatterDims.WF S8192x8192 S8192x2 S8192 [] [0, 1] [0, 1] 1

variable [Facts₀]

def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.KernelCond.lean ====
/-
  The tile kernel's one branch and the names the per-point runs are stated over.

  The grid is 8 × 8, walked row-major: point `t` is tile `(t / 8, t % 8)` of the matrix.  The body's
  only branch tests whether the tile's column coordinate is zero; there it first clears the three
  accumulators (row sums, column sums of this row of tiles, diagonal entries), elsewhere it adds to
  what the previous tile of the same row of tiles left.
-/
import proofs.«157649_j58007828300256_2_alg».proof.Proof.Gen.Kernel.Frame
import proofs.«157649_j58007828300256_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch's condition from the grid coordinates: the column coordinate of the tile is zero. -/
abbrev cond0 (i : grid0.Coords) : Prop :=
  (Scalar.cmpi .ne (Scalar.extui (Scalar.cmpi .eq (BitVec.ofNat 32 (i 1).val) 0#32)) 0#32) = 1#1

/-- It holds exactly at the first tile of each row of tiles. -/
theorem hcond0 : ∀ t : Fin cfg0.N, cond0 (grid0.coords t) ↔ t.val % 8 = 0 :=
  (by decide +kernel : ∀ t : Fin grid0.N, cond0 (grid0.coords t) ↔ t.val % 8 = 0)

/-- Each window's staging buffer at point `t`, and that it is a whole buffer. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

/-- Fixed views of the three accumulators' shapes, to read a list of stores back over arbitrary contents. -/
abbrev VO1 : View sig .tc .vmem S1024x1 .f32 := (Memref.whole cc0_stg1_0 : Memref sig .tc .vmem S1024x1 .f32).view
abbrev VO2 : View sig .tc .vmem S1x8x8192 .f32 := (Memref.whole cc0_stg2_0 : Memref sig .tc .vmem S1x8x8192 .f32).view
abbrev VO3 : View sig .tc .vmem S1024x1 .f32 := (Memref.whole cc0_stg3_0 : Memref sig .tc .vmem S1024x1 .f32).view

end Cert.Kernel.Body

end
-- ==== Proof.KernelRunA.lean ====
/-
  The tile kernel's body at the first tile of a row of tiles (column coordinate zero): whatever the
  three accumulators held, they are cleared and then receive this tile's contribution.  The stores
  each accumulator ends with are found by running the body symbolically.
-/
import proofs.«157649_j58007828300256_2_alg».proof.Proof.KernelCond

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the branch is taken.  The tile's buffer holds `x0` and is left alone; each
    accumulator's buffer, holding anything, ends as a list of stores (newest first) over whatever it held. -/
noncomputable def runA (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i)
    (x0 : Vec F S1024x1024 .f32) :
    Σ' (L1 : List (View.Piece (Elt F) S1024x1 .f32)), Σ' (L2 : List (View.Piece (Elt F) S1x8x8192 .f32)), { L3 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__npair_kernel i arg2 harg2 arg3 harg3 arg4 harg4 arg5 harg5) K } := by
  refine ⟨?_, ?_, ?_, fun E K => ?run⟩
  case run =>
    simp only [cc0__npair_kernel_eq_skeleton]; unfold cc0__npair_kernel_skel
    simp only [k0_part1_eq_skeleton]
    unfold owns
    iintro ⟨⟨%f0, %hf0, H0⟩, ⟨%d1, %f1, -, H1⟩, ⟨%d2, %f2, -, H2⟩, ⟨%d3, %f3, -, H3⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    iexists _; iexact H3

end Cert.Kernel.Body

end
-- ==== Proof.KernelRunB.lean ====
/-
  The tile kernel's body at a later tile of a row of tiles (column coordinate not zero): the row-sum
  and diagonal accumulators are read and rewritten whole; of the column-sum accumulator only the
  1024 columns of this tile are read and rewritten, the other columns keep what they held.
-/
import proofs.«157649_j58007828300256_2_alg».proof.Proof.KernelRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the branch is not taken.  The accumulators hold `xo1`, `xo2`, `xo3`; the first and the
    third end as stores over anything, the second as stores over exactly what it held. -/
noncomputable def runB (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i)
    (x0 : Vec F S1024x1024 .f32) (xo1 : Vec F S1024x1 .f32) (xo2 : Vec F S1x8x8192 .f32) (xo3 : Vec F S1024x1 .f32) :
    Σ' (L1 : List (View.Piece (Elt F) S1024x1 .f32)), Σ' (L2 : List (View.Piece (Elt F) S1x8x8192 .f32)), { L3 : List (View.Piece (Elt F) S1024x1 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2 ∗ owns (c : Thread nD τ) arg5 fullShare xo3
            ∗ (iprop(owns (c : Thread nD τ) arg2 fullShare x0 ∗ (∃ f, arg3.view.loc (c : Thread nD τ) ↦[arg3.view.set]{fullShare} arg3.view.writes (Elt F) f L1) ∗ (arg4.view.loc (c : Thread nD τ) ↦[arg4.view.set]{fullShare} arg4.view.writes (Elt F) (harg4.unread xo2) L2) ∗ (∃ f, arg5.view.loc (c : Thread nD τ) ↦[arg5.view.set]{fullShare} arg5.view.writes (Elt F) f L3)) -∗ K ⟨⟩))
          ⊢ wp frame (wpE (defs₀ (F := F)) Variants.none c none) E (cc0__npair_kernel i arg2 harg2 arg3 harg3 arg4 harg4 arg5 harg5) K } := by
  refine ⟨?_, ?_, ?_, fun E K => ?run⟩
  case run =>
    simp only [cc0__npair_kernel_eq_skeleton]; unfold cc0__npair_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]; · iexists _; iexact H1
    isplitl [H2]; · iexact H2
    iexists _; iexact H3

end Cert.Kernel.Body

end
-- ==== Proof.KernelBody.lean ====
/-
  What the three accumulators hold after every tile, and the run of the whole grid.

  After the first tile of a row of tiles each accumulator holds that tile's stores read back (they cover
  the buffer, so what it held before does not matter); after a later tile the row-sum and diagonal
  accumulators again hold a covering store, computed from what the previous tile left, and the
  column-sum accumulator holds what the previous tile left with this tile's 1024 columns rewritten.
  The accumulators are written back to their arrays only after the last tile of a row of tiles.
-/
import proofs.«157649_j58007828300256_2_alg».proof.Proof.KernelRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three accumulators' contents, in window order. -/
abbrev Acc (F : FTy → Type) [FloatOps F] : Type := Vec F S1024x1 .f32 × Vec F S1x8x8192 .f32 × Vec F S1024x1 .f32

/-! ## The first tile of a row of tiles: every accumulator is covered -/

theorem coverA1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) (y : S1024x1.Idx) :
    ∃ pc ∈ (runA c i arg2 harg2 arg3 harg3 arg4 harg4 arg5 harg5 hc0 x0).1, y ∈ pc.1.set :=
  View.cover_of_tiledL (runA c i arg2 harg2 arg3 harg3 arg4 harg4 arg5 harg5 hc0 x0).1 S1024x1.size (by sl_kernel_rfl) y

theorem coverA2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) (y : S1x8x8192.Idx) :
    ∃ pc ∈ (runA c i arg2 harg2 arg3 harg3 arg4 harg4 arg5 harg5 hc0 x0).2.1, y ∈ pc.1.set :=
  View.cover_of_wholeMem (runA c i arg2 harg2 arg3 harg3 arg4 harg4 arg5 harg5 hc0 x0).2.1 (by sl_whole_mem) y

theorem coverA3 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) (y : S1024x1.Idx) :
    ∃ pc ∈ (runA c i arg2 harg2 arg3 harg3 arg4 harg4 arg5 harg5 hc0 x0).2.2.1, y ∈ pc.1.set :=
  View.cover_of_tiledL (runA c i arg2 harg2 arg3 harg3 arg4 harg4 arg5 harg5 hc0 x0).2.2.1 S1024x1.size (by sl_kernel_rfl) y

/-- What the first tile of a row of tiles leaves in the accumulators: its stores read back. -/
def outA (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) : Acc F :=
  (VO1.read (Elt F) (VO1.writes (Elt F) VO1.junk (runA c i arg2 harg2 arg3 harg3 arg4 harg4 arg5 harg5 hc0 x0).1),
   VO2.read (Elt F) (VO2.writes (Elt F) VO2.junk (runA c i arg2 harg2 arg3 harg3 arg4 harg4 arg5 harg5 hc0 x0).2.1),
   VO3.read (Elt F) (VO3.writes (Elt F) VO3.junk (runA c i arg2 harg2 arg3 harg3 arg4 harg4 arg5 harg5 hc0 x0).2.2.1))

/-! ## A later tile: two covering stores, one partial store -/

theorem coverB1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32)
    (xo1 : Vec F S1024x1 .f32) (xo2 : Vec F S1x8x8192 .f32) (xo3 : Vec F S1024x1 .f32) (y : S1024x1.Idx) :
    ∃ pc ∈ (runB c i arg2 harg2 arg3 harg3 arg4 harg4 arg5 harg5 hc0 x0 xo1 xo2 xo3).1, y ∈ pc.1.set :=
  View.cover_of_tiledL (runB c i arg2 harg2 arg3 harg3 arg4 harg4 arg5 harg5 hc0 x0 xo1 xo2 xo3).1 S1024x1.size (by sl_kernel_rfl) y

theorem coverB3 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32)
    (xo1 : Vec F S1024x1 .f32) (xo2 : Vec F S1x8x8192 .f32) (xo3 : Vec F S1024x1 .f32) (y : S1024x1.Idx) :
    ∃ pc ∈ (runB c i arg2 harg2 arg3 harg3 arg4 harg4 arg5 harg5 hc0 x0 xo1 xo2 xo3).2.2.1, y ∈ pc.1.set :=
  View.cover_of_tiledL (runB c i arg2 harg2 arg3 harg3 arg4 harg4 arg5 harg5 hc0 x0 xo1 xo2 xo3).2.2.1 S1024x1.size (by sl_kernel_rfl) y

/-- What a later tile leaves in the accumulators, given what they held: the first and third its covering
    stores read back, the second its store read back over exactly what the buffer held. -/
def outB (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32) (xo : Acc F) : Acc F :=
  (VO1.read (Elt F) (VO1.writes (Elt F) VO1.junk (runB c i arg2 harg2 arg3 harg3 arg4 harg4 arg5 harg5 hc0 x0 xo.1 xo.2.1 xo.2.2).1),
   arg4.view.read (Elt F) (arg4.view.writes (Elt F) (harg4.unread xo.2.1) (runB c i arg2 harg2 arg3 harg3 arg4 harg4 arg5 harg5 hc0 x0 xo.1 xo.2.1 xo.2.2).2.1),
   VO3.read (Elt F) (VO3.writes (Elt F) VO3.junk (runB c i arg2 harg2 arg3 harg3 arg4 harg4 arg5 harg5 hc0 x0 xo.1 xo.2.1 xo.2.2).2.2.1))

/-! ## The accumulators after each tile, by recursion on the tile's position -/

/-- After the first tile of a row of tiles. -/
def stepA (c : Dev nD) (t : Fin cfg0.N) (h : t.val % 8 = 0) : Acc F :=
  outA c (grid0.coords t) (ms0 t) (hs0 t) (ms1 t) (hs1 t) (ms2 t) (hs2 t) (ms3 t) (hs3 t) ((hcond0 t).mpr h) (iblk m c 0 t)

/-- After a later tile, over what the tile before left. -/
def stepB (c : Dev nD) (t : Fin cfg0.N) (h : ¬t.val % 8 = 0) (prev : Acc F) : Acc F :=
  outB c (grid0.coords t) (ms0 t) (hs0 t) (ms1 t) (hs1 t) (ms2 t) (hs2 t) (ms3 t) (hs3 t) (fun hc => h ((hcond0 t).mp hc)) (iblk m c 0 t) prev

/-- The accumulators after the tile at position `n`. -/
def outsAt (c : Dev nD) : (n : ℕ) → n < cfg0.N → Acc F
  | 0, hn => stepA m c ⟨0, hn⟩ (Nat.zero_mod _)
  | n + 1, hn =>
    if h0 : (n + 1) % 8 = 0 then stepA m c ⟨n + 1, hn⟩ h0
    else stepB m c ⟨n + 1, hn⟩ h0 (outsAt c n (Nat.lt_of_succ_lt hn))

theorem outsAt_A (c : Dev nD) (t : Fin cfg0.N) (h0 : t.val % 8 = 0) :
    outsAt m c t.val t.isLt = stepA m c t h0 := by
  obtain ⟨n, hn⟩ := t
  cases n with
  | zero => exact rfl
  | succ n => exact (dif_pos h0).trans rfl

theorem outsAt_B (c : Dev nD) (t : Fin cfg0.N) (h0 : ¬t.val % 8 = 0) :
    outsAt m c t.val t.isLt = stepB m c t h0 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at tile `t` the input's buffer at its block and the
    accumulators at `outsAt`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
    | ⟨2, _⟩ => (outsAt m c t.val t.isLt).2.1
    | ⟨3, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = (outsAt m c t.val t.isLt).1 := by dsimp only [dats]
theorem after2 (c : Dev nD) (t : Fin cfg0.N) : (dats m 0 c).after 2 t = (outsAt m c t.val t.isLt).2.1 := by dsimp only [dats]
theorem after3 (c : Dev nD) (t : Fin cfg0.N) : (dats m 0 c).after 3 t = (outsAt m c t.val t.isLt).2.2 := by dsimp only [dats]

/-- The input's buffer holds its block at every tile. -/
theorem before0 (c : Dev nD) (t : Fin cfg0.N) (d) : (dats m 0 c).before 0 t d = iblk m c 0 t :=
  before0_0_of m (dats m 0 c) (A_eq m c 0) (after0 m c) t d

/-- At a later tile of a row of tiles each accumulator holds what the tile before left: it is not the first
    tile, and the accumulators are written back only after a tile whose position is 7 modulo 8. -/
theorem before1_B (c : Dev nD) (t : Fin cfg0.N) (h0 : ¬t.val % 8 = 0) (d) :
    (dats m 0 c).before 1 t d = (outsAt m c (t.val - 1) (Nat.lt_of_le_of_lt (Nat.sub_le _ _) t.isLt)).1 := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dats]
theorem before2_B (c : Dev nD) (t : Fin cfg0.N) (h0 : ¬t.val % 8 = 0) (d) :
    (dats m 0 c).before 2 t d = (outsAt m c (t.val - 1) (Nat.lt_of_le_of_lt (Nat.sub_le _ _) t.isLt)).2.1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_B (c : Dev nD) (t : Fin cfg0.N) (h0 : ¬t.val % 8 = 0) (d) :
    (dats m 0 c).before 3 t d = (outsAt m c (t.val - 1) (Nat.lt_of_le_of_lt (Nat.sub_le _ _) t.isLt)).2.2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body at a generic tile -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any tile: which case it is in is decided by its position modulo 8; a later tile finds the
    accumulators as the tile before left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1, after2, after3]
  have hN : t.val < 64 := lt_of_lt_of_eq t.isLt (show cfg0.N = 64 from N_0)
  by_cases h0 : t.val % 8 = 0
  · rw [outsAt_A m c t h0]
    unfold stepA outA; (try dsimp only)
    iintro ⟨HΦ, Ho, ⟨%d0, H0⟩, ⟨%d1, H1⟩, ⟨%d2, H2⟩, ⟨%d3, H3⟩⟩
    iapply ((runA c (grid0.coords t) _ _ _ _ _ _ _ _ ((hcond0 t).mpr h0) (iblk m c 0 t)).2.2.2 Set.univ _)
    isplitl [H0]; · iexact H0
    isplitl [H1]; · iexists _; iexact H1
    isplitl [H2]; · iexists _; iexact H2
    isplitl [H3]; · iexists _; iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (coverA1 c _ _ _ _ _ _ _ _ _ _ _)
    isplitl [H2]
    · unfold owns; iexists _; isplitr
      swap; · iexact H2
      ipureintro; exact View.read_writes_of_cover _ _ _ _ _ (coverA2 c _ _ _ _ _ _ _ _ _ _ _)
    unfold owns; iexists _; isplitr
    swap; · iexact H3
    ipureintro; exact View.read_writes_of_cover _ _ _ _ _ (coverA3 c _ _ _ _ _ _ _ _ _ _ _)
  · rw [outsAt_B m c t h0]
    simp only [before1_B m c t h0, before2_B m c t h0, before3_B m c t h0]
    unfold stepB outB; (try dsimp only)
    iintro ⟨HΦ, Ho, ⟨%d0, H0⟩, ⟨%d1, H1⟩, ⟨%d2, H2⟩, ⟨%d3, H3⟩⟩
    iapply ((runB c (grid0.coords t) _ _ _ _ _ _ _ _ (fun hc => h0 ((hcond0 t).mp hc)) (iblk m c 0 t) _ _ _).2.2.2 Set.univ _)
    isplitl [H0]; · iexact H0
    isplitl [H1]; · iexact H1
    isplitl [H2]; · iexact H2
    isplitl [H3]; · iexact H3
    iintro ⟨H0, ⟨%e1, H1⟩, H2, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (coverB1 c _ _ _ _ _ _ _ _ _ _ _ _ _ _)
    isplitl [H2]
    · unfold owns; iexists _; isplitr
      swap; · iexact H2
      ipureintro; rfl
    unfold owns; iexists _; isplitr
    swap; · iexact H3
    ipureintro; exact View.read_writes_of_cover _ _ _ _ _ (coverB3 c _ _ _ _ _ _ _ _ _ _ _ _ _ _)

/-- The body obligation at every tile. -/
theorem body_obligation (c : Dev nD) : BodyObligation (dats (F := F) m 0 c) (defs₀ (F := F)) Variants.none () Set.univ := fun t => by
  rw [bigSep_W0, bigSep_W0]
  exact sound_body m c t

/-! ## The run of the whole program -/

set_option backward.isDefEq.respectTransparency.types false in
/-- Every weakly fair execution terminates; every array of the pipeline ends at what the write-backs of the
    proof data give, every other buffer at the host operations after the region applied to those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.KernelIdealCond.lean ====
/-
  The tile kernel's one branch and the names the per-point runs are stated over.

  The grid is 8 × 8, walked row-major: point `t` is tile `(t / 8, t % 8)` of the matrix.  The body's
  only branch tests whether the tile's column coordinate is zero; there it first clears the three
  accumulators (row sums, column sums of this row of tiles, diagonal entries), elsewhere it adds to
  what the previous tile of the same row of tiles left.
-/
import proofs.«157649_j58007828300256_2_alg».proof.Proof.Gen.KernelIdeal.Frame
import proofs.«157649_j58007828300256_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch's condition from the grid coordinates: the column coordinate of the tile is zero. -/
abbrev cond0 (i : grid0.Coords) : Prop :=
  (Scalar.cmpi .ne (Scalar.extui (Scalar.cmpi .eq (BitVec.ofNat 32 (i 1).val) 0#32)) 0#32) = 1#1

/-- It holds exactly at the first tile of each row of tiles. -/
theorem hcond0 : ∀ t : Fin cfg0.N, cond0 (grid0.coords t) ↔ t.val % 8 = 0 :=
  (by decide +kernel : ∀ t : Fin grid0.N, cond0 (grid0.coords t) ↔ t.val % 8 = 0)

/-- Each window's staging buffer at point `t`, and that it is a whole buffer. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

/-- Fixed views of the three accumulators' shapes, to read a list of stores back over arbitrary contents. -/
abbrev VO1 : View sig .tc .vmem S1024x1 .f32 := (Memref.whole cc0_stg1_0 : Memref sig .tc .vmem S1024x1 .f32).view
abbrev VO2 : View sig .tc .vmem S1x8x8192 .f32 := (Memref.whole cc0_stg2_0 : Memref sig .tc .vmem S1x8x8192 .f32).view
abbrev VO3 : View sig .tc .vmem S1024x1 .f32 := (Memref.whole cc0_stg3_0 : Memref sig .tc .vmem S1024x1 .f32).view

end Cert.KernelIdeal.Body

end
-- ==== Proof.KernelIdealRunA.lean ====
/-
  The tile kernel's body at the first tile of a row of tiles (column coordinate zero): whatever the
  three accumulators held, they are cleared and then receive this tile's contribution.  The stores
  each accumulator ends with are found by running the body symbolically.
-/
import proofs.«157649_j58007828300256_2_alg».proof.Proof.KernelIdealCond

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the branch is taken.  The tile's buffer holds `x0` and is left alone; each
    accumulator's buffer, holding anything, ends as a list of stores (newest first) over whatever it held. -/
noncomputable def runA (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i)
    (x0 : Vec F S1024x1024 .f32) :
    Σ' (L1 : List (View.Piece (Elt F) S1024x1 .f32)), Σ' (L2 : List (View.Piece (Elt F) S1x8x8192 .f32)), { L3 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__npair_kernel i arg2 harg2 arg3 harg3 arg4 harg4 arg5 harg5) K } := by
  refine ⟨?_, ?_, ?_, fun E K => ?run⟩
  case run =>
    simp only [cc0__npair_kernel_eq_skeleton]; unfold cc0__npair_kernel_skel
    simp only [k0_part1_eq_skeleton]
    unfold owns
    iintro ⟨⟨%f0, %hf0, H0⟩, ⟨%d1, %f1, -, H1⟩, ⟨%d2, %f2, -, H2⟩, ⟨%d3, %f3, -, H3⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    iexists _; iexact H3

end Cert.KernelIdeal.Body

end
-- ==== Proof.KernelIdealRunB.lean ====
/-
  The tile kernel's body at a later tile of a row of tiles (column coordinate not zero): the row-sum
  and diagonal accumulators are read and rewritten whole; of the column-sum accumulator only the
  1024 columns of this tile are read and rewritten, the other columns keep what they held.
-/
import proofs.«157649_j58007828300256_2_alg».proof.Proof.KernelIdealRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the branch is not taken.  The accumulators hold `xo1`, `xo2`, `xo3`; the first and the
    third end as stores over anything, the second as stores over exactly what it held. -/
noncomputable def runB (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i)
    (x0 : Vec F S1024x1024 .f32) (xo1 : Vec F S1024x1 .f32) (xo2 : Vec F S1x8x8192 .f32) (xo3 : Vec F S1024x1 .f32) :
    Σ' (L1 : List (View.Piece (Elt F) S1024x1 .f32)), Σ' (L2 : List (View.Piece (Elt F) S1x8x8192 .f32)), { L3 : List (View.Piece (Elt F) S1024x1 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2 ∗ owns (c : Thread nD τ) arg5 fullShare xo3
            ∗ (iprop(owns (c : Thread nD τ) arg2 fullShare x0 ∗ (∃ f, arg3.view.loc (c : Thread nD τ) ↦[arg3.view.set]{fullShare} arg3.view.writes (Elt F) f L1) ∗ (arg4.view.loc (c : Thread nD τ) ↦[arg4.view.set]{fullShare} arg4.view.writes (Elt F) (harg4.unread xo2) L2) ∗ (∃ f, arg5.view.loc (c : Thread nD τ) ↦[arg5.view.set]{fullShare} arg5.view.writes (Elt F) f L3)) -∗ K ⟨⟩))
          ⊢ wp frame (wpE (defs₀ (F := F)) Variants.none c none) E (cc0__npair_kernel i arg2 harg2 arg3 harg3 arg4 harg4 arg5 harg5) K } := by
  refine ⟨?_, ?_, ?_, fun E K => ?run⟩
  case run =>
    simp only [cc0__npair_kernel_eq_skeleton]; unfold cc0__npair_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]; · iexists _; iexact H1
    isplitl [H2]; · iexact H2
    iexists _; iexact H3

end Cert.KernelIdeal.Body

end
-- ==== Proof.KernelIdealBody.lean ====
/-
  What the three accumulators hold after every tile, and the run of the whole grid.

  After the first tile of a row of tiles each accumulator holds that tile's stores read back (they cover
  the buffer, so what it held before does not matter); after a later tile the row-sum and diagonal
  accumulators again hold a covering store, computed from what the previous tile left, and the
  column-sum accumulator holds what the previous tile left with this tile's 1024 columns rewritten.
  The accumulators are written back to their arrays only after the last tile of a row of tiles.
-/
import proofs.«157649_j58007828300256_2_alg».proof.Proof.KernelIdealRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three accumulators' contents, in window order. -/
abbrev Acc (F : FTy → Type) [FloatOps F] : Type := Vec F S1024x1 .f32 × Vec F S1x8x8192 .f32 × Vec F S1024x1 .f32

/-! ## The first tile of a row of tiles: every accumulator is covered -/

theorem coverA1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) (y : S1024x1.Idx) :
    ∃ pc ∈ (runA c i arg2 harg2 arg3 harg3 arg4 harg4 arg5 harg5 hc0 x0).1, y ∈ pc.1.set :=
  View.cover_of_tiledL (runA c i arg2 harg2 arg3 harg3 arg4 harg4 arg5 harg5 hc0 x0).1 S1024x1.size (by sl_kernel_rfl) y

theorem coverA2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) (y : S1x8x8192.Idx) :
    ∃ pc ∈ (runA c i arg2 harg2 arg3 harg3 arg4 harg4 arg5 harg5 hc0 x0).2.1, y ∈ pc.1.set :=
  View.cover_of_wholeMem (runA c i arg2 harg2 arg3 harg3 arg4 harg4 arg5 harg5 hc0 x0).2.1 (by sl_whole_mem) y

theorem coverA3 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) (y : S1024x1.Idx) :
    ∃ pc ∈ (runA c i arg2 harg2 arg3 harg3 arg4 harg4 arg5 harg5 hc0 x0).2.2.1, y ∈ pc.1.set :=
  View.cover_of_tiledL (runA c i arg2 harg2 arg3 harg3 arg4 harg4 arg5 harg5 hc0 x0).2.2.1 S1024x1.size (by sl_kernel_rfl) y

/-- What the first tile of a row of tiles leaves in the accumulators: its stores read back. -/
def outA (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) : Acc F :=
  (VO1.read (Elt F) (VO1.writes (Elt F) VO1.junk (runA c i arg2 harg2 arg3 harg3 arg4 harg4 arg5 harg5 hc0 x0).1),
   VO2.read (Elt F) (VO2.writes (Elt F) VO2.junk (runA c i arg2 harg2 arg3 harg3 arg4 harg4 arg5 harg5 hc0 x0).2.1),
   VO3.read (Elt F) (VO3.writes (Elt F) VO3.junk (runA c i arg2 harg2 arg3 harg3 arg4 harg4 arg5 harg5 hc0 x0).2.2.1))

/-! ## A later tile: two covering stores, one partial store -/

theorem coverB1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32)
    (xo1 : Vec F S1024x1 .f32) (xo2 : Vec F S1x8x8192 .f32) (xo3 : Vec F S1024x1 .f32) (y : S1024x1.Idx) :
    ∃ pc ∈ (runB c i arg2 harg2 arg3 harg3 arg4 harg4 arg5 harg5 hc0 x0 xo1 xo2 xo3).1, y ∈ pc.1.set :=
  View.cover_of_tiledL (runB c i arg2 harg2 arg3 harg3 arg4 harg4 arg5 harg5 hc0 x0 xo1 xo2 xo3).1 S1024x1.size (by sl_kernel_rfl) y

theorem coverB3 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32)
    (xo1 : Vec F S1024x1 .f32) (xo2 : Vec F S1x8x8192 .f32) (xo3 : Vec F S1024x1 .f32) (y : S1024x1.Idx) :
    ∃ pc ∈ (runB c i arg2 harg2 arg3 harg3 arg4 harg4 arg5 harg5 hc0 x0 xo1 xo2 xo3).2.2.1, y ∈ pc.1.set :=
  View.cover_of_tiledL (runB c i arg2 harg2 arg3 harg3 arg4 harg4 arg5 harg5 hc0 x0 xo1 xo2 xo3).2.2.1 S1024x1.size (by sl_kernel_rfl) y

/-- What a later tile leaves in the accumulators, given what they held: the first and third its covering
    stores read back, the second its store read back over exactly what the buffer held. -/
def outB (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32) (xo : Acc F) : Acc F :=
  (VO1.read (Elt F) (VO1.writes (Elt F) VO1.junk (runB c i arg2 harg2 arg3 harg3 arg4 harg4 arg5 harg5 hc0 x0 xo.1 xo.2.1 xo.2.2).1),
   arg4.view.read (Elt F) (arg4.view.writes (Elt F) (harg4.unread xo.2.1) (runB c i arg2 harg2 arg3 harg3 arg4 harg4 arg5 harg5 hc0 x0 xo.1 xo.2.1 xo.2.2).2.1),
   VO3.read (Elt F) (VO3.writes (Elt F) VO3.junk (runB c i arg2 harg2 arg3 harg3 arg4 harg4 arg5 harg5 hc0 x0 xo.1 xo.2.1 xo.2.2).2.2.1))

/-! ## The accumulators after each tile, by recursion on the tile's position -/

/-- After the first tile of a row of tiles. -/
def stepA (c : Dev nD) (t : Fin cfg0.N) (h : t.val % 8 = 0) : Acc F :=
  outA c (grid0.coords t) (ms0 t) (hs0 t) (ms1 t) (hs1 t) (ms2 t) (hs2 t) (ms3 t) (hs3 t) ((hcond0 t).mpr h) (iblk m c 0 t)

/-- After a later tile, over what the tile before left. -/
def stepB (c : Dev nD) (t : Fin cfg0.N) (h : ¬t.val % 8 = 0) (prev : Acc F) : Acc F :=
  outB c (grid0.coords t) (ms0 t) (hs0 t) (ms1 t) (hs1 t) (ms2 t) (hs2 t) (ms3 t) (hs3 t) (fun hc => h ((hcond0 t).mp hc)) (iblk m c 0 t) prev

/-- The accumulators after the tile at position `n`. -/
def outsAt (c : Dev nD) : (n : ℕ) → n < cfg0.N → Acc F
  | 0, hn => stepA m c ⟨0, hn⟩ (Nat.zero_mod _)
  | n + 1, hn =>
    if h0 : (n + 1) % 8 = 0 then stepA m c ⟨n + 1, hn⟩ h0
    else stepB m c ⟨n + 1, hn⟩ h0 (outsAt c n (Nat.lt_of_succ_lt hn))

theorem outsAt_A (c : Dev nD) (t : Fin cfg0.N) (h0 : t.val % 8 = 0) :
    outsAt m c t.val t.isLt = stepA m c t h0 := by
  obtain ⟨n, hn⟩ := t
  cases n with
  | zero => exact rfl
  | succ n => exact (dif_pos h0).trans rfl

theorem outsAt_B (c : Dev nD) (t : Fin cfg0.N) (h0 : ¬t.val % 8 = 0) :
    outsAt m c t.val t.isLt = stepB m c t h0 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at tile `t` the input's buffer at its block and the
    accumulators at `outsAt`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
    | ⟨2, _⟩ => (outsAt m c t.val t.isLt).2.1
    | ⟨3, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = (outsAt m c t.val t.isLt).1 := by dsimp only [dats]
theorem after2 (c : Dev nD) (t : Fin cfg0.N) : (dats m 0 c).after 2 t = (outsAt m c t.val t.isLt).2.1 := by dsimp only [dats]
theorem after3 (c : Dev nD) (t : Fin cfg0.N) : (dats m 0 c).after 3 t = (outsAt m c t.val t.isLt).2.2 := by dsimp only [dats]

/-- The input's buffer holds its block at every tile. -/
theorem before0 (c : Dev nD) (t : Fin cfg0.N) (d) : (dats m 0 c).before 0 t d = iblk m c 0 t :=
  before0_0_of m (dats m 0 c) (A_eq m c 0) (after0 m c) t d

/-- At a later tile of a row of tiles each accumulator holds what the tile before left: it is not the first
    tile, and the accumulators are written back only after a tile whose position is 7 modulo 8. -/
theorem before1_B (c : Dev nD) (t : Fin cfg0.N) (h0 : ¬t.val % 8 = 0) (d) :
    (dats m 0 c).before 1 t d = (outsAt m c (t.val - 1) (Nat.lt_of_le_of_lt (Nat.sub_le _ _) t.isLt)).1 := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dats]
theorem before2_B (c : Dev nD) (t : Fin cfg0.N) (h0 : ¬t.val % 8 = 0) (d) :
    (dats m 0 c).before 2 t d = (outsAt m c (t.val - 1) (Nat.lt_of_le_of_lt (Nat.sub_le _ _) t.isLt)).2.1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_B (c : Dev nD) (t : Fin cfg0.N) (h0 : ¬t.val % 8 = 0) (d) :
    (dats m 0 c).before 3 t d = (outsAt m c (t.val - 1) (Nat.lt_of_le_of_lt (Nat.sub_le _ _) t.isLt)).2.2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body at a generic tile -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any tile: which case it is in is decided by its position modulo 8; a later tile finds the
    accumulators as the tile before left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1, after2, after3]
  have hN : t.val < 64 := lt_of_lt_of_eq t.isLt (show cfg0.N = 64 from N_0)
  by_cases h0 : t.val % 8 = 0
  · rw [outsAt_A m c t h0]
    unfold stepA outA; (try dsimp only)
    iintro ⟨HΦ, Ho, ⟨%d0, H0⟩, ⟨%d1, H1⟩, ⟨%d2, H2⟩, ⟨%d3, H3⟩⟩
    iapply ((runA c (grid0.coords t) _ _ _ _ _ _ _ _ ((hcond0 t).mpr h0) (iblk m c 0 t)).2.2.2 Set.univ _)
    isplitl [H0]; · iexact H0
    isplitl [H1]; · iexists _; iexact H1
    isplitl [H2]; · iexists _; iexact H2
    isplitl [H3]; · iexists _; iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (coverA1 c _ _ _ _ _ _ _ _ _ _ _)
    isplitl [H2]
    · unfold owns; iexists _; isplitr
      swap; · iexact H2
      ipureintro; exact View.read_writes_of_cover _ _ _ _ _ (coverA2 c _ _ _ _ _ _ _ _ _ _ _)
    unfold owns; iexists _; isplitr
    swap; · iexact H3
    ipureintro; exact View.read_writes_of_cover _ _ _ _ _ (coverA3 c _ _ _ _ _ _ _ _ _ _ _)
  · rw [outsAt_B m c t h0]
    simp only [before1_B m c t h0, before2_B m c t h0, before3_B m c t h0]
    unfold stepB outB; (try dsimp only)
    iintro ⟨HΦ, Ho, ⟨%d0, H0⟩, ⟨%d1, H1⟩, ⟨%d2, H2⟩, ⟨%d3, H3⟩⟩
    iapply ((runB c (grid0.coords t) _ _ _ _ _ _ _ _ (fun hc => h0 ((hcond0 t).mp hc)) (iblk m c 0 t) _ _ _).2.2.2 Set.univ _)
    isplitl [H0]; · iexact H0
    isplitl [H1]; · iexact H1
    isplitl [H2]; · iexact H2
    isplitl [H3]; · iexact H3
    iintro ⟨H0, ⟨%e1, H1⟩, H2, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (coverB1 c _ _ _ _ _ _ _ _ _ _ _ _ _ _)
    isplitl [H2]
    · unfold owns; iexists _; isplitr
      swap; · iexact H2
      ipureintro; rfl
    unfold owns; iexists _; isplitr
    swap; · iexact H3
    ipureintro; exact View.read_writes_of_cover _ _ _ _ _ (coverB3 c _ _ _ _ _ _ _ _ _ _ _ _ _ _)

/-- The body obligation at every tile. -/
theorem body_obligation (c : Dev nD) : BodyObligation (dats (F := F) m 0 c) (defs₀ (F := F)) Variants.none () Set.univ := fun t => by
  rw [bigSep_W0, bigSep_W0]
  exact sound_body m c t

/-! ## The run of the whole program -/

set_option backward.isDefEq.respectTransparency.types false in
/-- Every weakly fair execution terminates; every array of the pipeline ends at what the write-backs of the
    proof data give, every other buffer at the host operations after the region applied to those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.KernelIdealCase.lean ====
/-
  What one tile leaves in the three accumulators, as values.

  At the first tile of a row of tiles the row-sum and diagonal accumulators hold the tile's payload
  over a zero block, and the column-sum accumulator is zero outside the tile's 1024 columns and the
  tile's payload over zeros inside them.  At a later tile the first and third hold the payload over what
  they held, and the second keeps what it held outside the tile's columns.
-/
import proofs.«157649_j58007828300256_2_alg».proof.Proof.KernelIdealBody
import Idealize.ShloMosaic.Lib.Pipeline.Value
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The tile's columns inside the column-sum accumulator: the rectangle the partial store goes through. -/
abbrev colRect (i : grid0.Coords) : Rect S1x8x8192 := Rect.unit (k0_off1 i) S1x8x1024.size (k0_off1_inb i)

/-! ## A later tile -/

theorem outB_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32) (xo : Acc F) :
    (outB c i arg2 harg2 arg3 harg3 arg4 harg4 arg5 harg5 hc0 x0 xo).1 = k0_pay8 i x0 xo.1 := by
  unfold outB
  dsimp only
  rw [View.read_writes_eq_canon _ _ _ (coverB1 c i arg2 harg2 arg3 harg3 arg4 harg4 arg5 harg5 hc0 x0 xo.1 xo.2.1 xo.2.2)]
  unfold runB
  dsimp only
  rw [View.canon_unit_zero hz2]
  simp only [View.readAt_eq_ld, harg2.read_unread, harg3.read_unread, View.ld_unit_zero (S := S1024x1024) hz2,
    View.ld_unit_zero (S := S1024x1) hz2]

theorem outB_3 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32) (xo : Acc F) :
    (outB c i arg2 harg2 arg3 harg3 arg4 harg4 arg5 harg5 hc0 x0 xo).2.2 = k0_pay9 i x0 xo.2.2 := by
  unfold outB
  dsimp only
  rw [View.read_writes_eq_canon _ _ _ (coverB3 c i arg2 harg2 arg3 harg3 arg4 harg4 arg5 harg5 hc0 x0 xo.1 xo.2.1 xo.2.2)]
  unfold runB
  dsimp only
  sl_unfold_words
  rw [View.canon_unit_zero hz2]
  simp only [View.readAt_eq_ld, harg2.read_unread, harg5.read_unread, View.ld_unit_zero (S := S1024x1024) hz2,
    View.ld_unit_zero (S := S1024x1) hz2]

/-- Inside the tile's columns the column-sum accumulator holds the payload of what it held there. -/
theorem outB_2_mem (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32) (xo : Acc F)
    (y : S1x8x8192.Idx) (z : S1x8x1024.Idx) (hx : ∀ a, (y a).val = (![0, 0, 1024 * (i 1).val] : Fin 3 → ℕ) a + (z a).val) :
    (outB c i arg2 harg2 arg3 harg3 arg4 harg4 arg5 harg5 hc0 x0 xo).2.1 y = k0_pay1 (k0_pay4 i x0) (View.ld xo.2.1 (colRect i)) z := by
  show arg4.view.read (Elt F) (arg4.view.writes (Elt F) (harg4.unread xo.2.1) (runB c i arg2 harg2 arg3 harg3 arg4 harg4 arg5 harg5 hc0 x0 xo.1 xo.2.1 xo.2.2).2.1) y = _
  unfold runB
  dsimp only
  sl_unfold_words
  refine (View.read_writes_cons_unit_of_mem arg4.view _ (k0_off1_inb i) _ [] y z (k0_off1_eq i) hx).trans ?_
  simp only [View.readAt_eq_ld, harg2.read_unread, harg4.read_unread, View.ld_unit_zero (S := S1024x1024) hz2]
  rfl

/-- Outside them it keeps what it held. -/
theorem outB_2_not_mem (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x0 : Vec F S1024x1024 .f32) (xo : Acc F)
    (y : S1x8x8192.Idx) (hy : (y 2).val < 1024 * (i 1).val ∨ 1024 * (i 1).val + 1024 ≤ (y 2).val) :
    (outB c i arg2 harg2 arg3 harg3 arg4 harg4 arg5 harg5 hc0 x0 xo).2.1 y = xo.2.1 y := by
  show arg4.view.read (Elt F) (arg4.view.writes (Elt F) (harg4.unread xo.2.1) (runB c i arg2 harg2 arg3 harg3 arg4 harg4 arg5 harg5 hc0 x0 xo.1 xo.2.1 xo.2.2).2.1) y = _
  unfold runB
  dsimp only
  refine (View.read_writes_cons_unit_of_not_mem arg4.view _ (k0_off1_inb i) _ [] y (k0_off1_eq i) 2 hy).trans ?_
  rw [View.writes_nil, harg4.read_unread]

/-! ## The first tile of a row of tiles -/

theorem outA_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) :
    (outA c i arg2 harg2 arg3 harg3 arg4 harg4 arg5 harg5 hc0 x0).1 = k0_pay8 i x0 (k0_pay5 (F := F)) := by
  unfold outA
  dsimp only
  rw [View.read_writes_eq_canon _ _ _ (coverA1 c i arg2 harg2 arg3 harg3 arg4 harg4 arg5 harg5 hc0 x0)]
  unfold runA
  dsimp only
  sl_unfold_words
  rw [View.canon_cons_unit_zero (S := S1024x1) hz2, View.readCov_unit_zero (S := S1024x1) _ hz2]
  simp only [View.readAt_eq_ld, harg2.read_unread, View.ld_unit_zero (S := S1024x1024) hz2]

theorem outA_3 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32) :
    (outA c i arg2 harg2 arg3 harg3 arg4 harg4 arg5 harg5 hc0 x0).2.2 = k0_pay9 i x0 (k0_pay6 (F := F)) := by
  unfold outA
  dsimp only
  rw [View.read_writes_eq_canon _ _ _ (coverA3 c i arg2 harg2 arg3 harg3 arg4 harg4 arg5 harg5 hc0 x0)]
  unfold runA
  dsimp only
  sl_unfold_words
  rw [View.canon_cons_unit_zero (S := S1024x1) hz2, View.readCov_unit_zero (S := S1024x1) _ hz2]
  simp only [View.readAt_eq_ld, harg2.read_unread, View.ld_unit_zero (S := S1024x1024) hz2]

/-- Inside the tile's columns the cleared column-sum accumulator holds the payload over zeros. -/
theorem outA_2_mem (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32)
    (y : S1x8x8192.Idx) (z : S1x8x1024.Idx) (hx : ∀ a, (y a).val = (![0, 0, 1024 * (i 1).val] : Fin 3 → ℕ) a + (z a).val) :
    (outA c i arg2 harg2 arg3 harg3 arg4 harg4 arg5 harg5 hc0 x0).2.1 y = k0_pay1 (k0_pay4 i x0) (View.ld (k0_pay7 (F := F)) (colRect i)) z := by
  unfold outA
  dsimp only
  unfold runA
  dsimp only
  sl_unfold_words
  refine (View.read_writes_cons_unit_of_mem VO2 _ (k0_off1_inb i) _ _ y z (k0_off1_eq i) hx).trans ?_
  rw [View.readAt_writes_junk_eq_canon, View.canon_unit_zero hz3]
  simp only [View.readAt_eq_ld, harg2.read_unread, View.ld_unit_zero (S := S1024x1024) hz2]
  rfl

/-- Outside them it is zero. -/
theorem outA_2_not_mem (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x0 : Vec F S1024x1024 .f32)
    (y : S1x8x8192.Idx) (hy : (y 2).val < 1024 * (i 1).val ∨ 1024 * (i 1).val + 1024 ≤ (y 2).val) :
    (outA c i arg2 harg2 arg3 harg3 arg4 harg4 arg5 harg5 hc0 x0).2.1 y = k0_pay7 (F := F) y := by
  unfold outA
  dsimp only
  unfold runA
  dsimp only
  sl_unfold_words
  refine (View.read_writes_cons_unit_of_not_mem VO2 _ (k0_off1_inb i) _ _ y (k0_off1_eq i) 2 hy).trans ?_
  rw [View.read_writes_junk_eq_canon, View.canon_unit_zero hz3]

end Cert.KernelIdeal.Body

end
-- ==== Proof.Spec.lean ====
/-
  The n-pair loss as one function of the distance matrix, over the extended reals.

  For a square matrix `x` of side 8192 let `B` be `x` with its diagonal replaced by zero and
  `E = exp (1 - B)` entrywise.  The loss is
    `(∑ i, (log (∑ k, E i k + ∑ k, E k i) + x i i)²) / 16384`.
  Both programs compute this number; they differ only in how the two inner sums are grouped
  (whole rows and columns on one side, tiles of side 1024 accumulated one after the other on the
  other side) and in how the diagonal is extracted (a gather on one side, a masked row sum on the
  other).  Sums over the extended reals are sums in a commutative monoid, so no finiteness is needed.
-/
import Idealize.ShloMosaic.PureOps.Ideal
import Idealize.ShloMosaic.Lib.ValueIdx

noncomputable section

namespace Cert.NPairSpec

open Idealize.ShloMosaic Idealize.ShloMosaic.ValueIdx

/-- A square matrix of side 8192 over the extended reals. -/
abbrev Mat : Type := (⟨2, ![8192, 8192]⟩ : Shape).Idx → EReal

/-- The float `1.0` and the float `16384.0`, kept as their words: both programs spell them alike. -/
abbrev one : EReal := Ideal.ofBits .f32 0x3F800000#32
abbrev twoBn : EReal := Ideal.ofBits .f32 0x46800000#32

/-- `E i k = exp (1 - B i k)`, where `B` is `x` with a zero diagonal. -/
def E (x : Mat) (i k : Fin 8192) : EReal :=
  Ideal.exp (one - (if i = k then 0 else x (ix2 i k)))

/-- The sum of row `i` of `E`. -/
def rowSum (x : Mat) (i : Fin 8192) : EReal := ∑ k : Fin 8192, E x i k

/-- The sum of column `j` of `E`. -/
def colSum (x : Mat) (j : Fin 8192) : EReal := ∑ k : Fin 8192, E x k j

/-- `log (row sum + column sum) + x i i`. -/
def term (x : Mat) (i : Fin 8192) : EReal :=
  Ideal.log (rowSum x i + colSum x i) + x (ix2 i i)

/-- The loss. -/
def loss (x : Mat) : EReal := Ideal.div (∑ i : Fin 8192, term x i * term x i) twoBn

end Cert.NPairSpec

end
-- ==== Proof.TileSpec.lean ====
/-
  The loss's inner sums cut into tiles of side 1024.

  An index below 8192 is `a * 1024 + b` for a unique tile number `a < 8` and position `b < 1024`
  (`glue`); a sum over the 8192 indices is the sum over the tile numbers of the sums over the positions
  (`sum_glue`).  A row of `E` is accumulated tile by tile from the left, a column of `E` is first summed
  within each tile row and the eight partial columns are added at the end, and the diagonal entry of a
  row is the sum of the row of `D`, the matrix that keeps the diagonal of `x` and is zero elsewhere.
-/
import proofs.«157649_j58007828300256_2_alg».proof.Proof.Spec

noncomputable section

namespace Cert.NPairSpec

open Idealize.ShloMosaic Idealize.ShloMosaic.ValueIdx

/-- The index `a * 1024 + b`. -/
def glue (a : Fin 8) (b : Fin 1024) : Fin 8192 := ⟨a.val * 1024 + b.val, by omega⟩

@[simp] theorem glue_val (a : Fin 8) (b : Fin 1024) : (glue a b).val = a.val * 1024 + b.val := rfl

theorem glue_inj {a a' : Fin 8} {b b' : Fin 1024} : glue a b = glue a' b' ↔ a = a' ∧ b = b' := by
  constructor
  · intro h
    have := congrArg Fin.val h
    simp only [glue_val] at this
    exact ⟨Fin.ext (by omega), Fin.ext (by omega)⟩
  · rintro ⟨rfl, rfl⟩; rfl

/-- Tile number and position as one index, and back. -/
def glueEquiv : Fin 8 × Fin 1024 ≃ Fin 8192 where
  toFun ab := glue ab.1 ab.2
  invFun k := (⟨k.val / 1024, by omega⟩, ⟨k.val % 1024, by omega⟩)
  left_inv ab := by
    obtain ⟨a, b⟩ := ab
    refine Prod.ext (Fin.ext ?_) (Fin.ext ?_)
    · show (a.val * 1024 + b.val) / 1024 = a.val; omega
    · show (a.val * 1024 + b.val) % 1024 = b.val; omega
  right_inv k := Fin.ext (by show k.val / 1024 * 1024 + k.val % 1024 = k.val; omega)

/-- A sum over all indices, tile by tile. -/
theorem sum_glue {M : Type*} [AddCommMonoid M] (f : Fin 8192 → M) :
    ∑ k : Fin 8192, f k = ∑ a : Fin 8, ∑ b : Fin 1024, f (glue a b) := by
  rw [← Fintype.sum_prod_type' (fun a b => f (glue a b))]
  exact (Fintype.sum_equiv glueEquiv _ _ (fun _ => rfl)).symm

/-- Every index is glued from its tile number and position. -/
theorem exists_glue (k : Fin 8192) : ∃ a b, k = glue a b :=
  ⟨(glueEquiv.symm k).1, (glueEquiv.symm k).2, (glueEquiv.apply_symm_apply k).symm⟩

/-- Tile `(bi, bj)` of the matrix. -/
def tile (x : Mat) (bi bj : Fin 8) : (⟨2, ![1024, 1024]⟩ : Shape).Idx → EReal :=
  fun y => x (ix2 (glue bi (y 0)) (glue bj (y 1)))

/-- The matrix that keeps the diagonal of `x` and is zero elsewhere. -/
def D (x : Mat) (i k : Fin 8192) : EReal := if i = k then x (ix2 i k) else 0

/-- The part of row `r` of `E` inside tile column `a`. -/
def rowPart (x : Mat) (r : Fin 8192) (a : Fin 8) : EReal := ∑ b : Fin 1024, E x r (glue a b)

/-- The part of column `col` of `E` inside tile row `a`. -/
def colPart (x : Mat) (a : Fin 8) (col : Fin 8192) : EReal := ∑ p : Fin 1024, E x (glue a p) col

/-- The part of row `r` of `D` inside tile column `a`. -/
def diagPart (x : Mat) (r : Fin 8192) (a : Fin 8) : EReal := ∑ b : Fin 1024, D x r (glue a b)

/-- A row of `E` is the sum of its eight parts. -/
theorem rowSum_eq (x : Mat) (r : Fin 8192) : rowSum x r = ∑ a : Fin 8, rowPart x r a := sum_glue _

/-- A column of `E` is the sum of its eight parts. -/
theorem colSum_eq (x : Mat) (col : Fin 8192) : colSum x col = ∑ a : Fin 8, colPart x a col := sum_glue _

/-- A row of `D` sums to the diagonal entry. -/
theorem diag_eq (x : Mat) (r : Fin 8192) : ∑ a : Fin 8, diagPart x r a = x (ix2 r r) := by
  show ∑ a : Fin 8, ∑ b : Fin 1024, D x r (glue a b) = _
  rw [← sum_glue (fun k => D x r k)]
  simp only [D]
  rw [Finset.sum_ite_eq Finset.univ r (fun k => x (ix2 r k))]
  simp

end Cert.NPairSpec

end
-- ==== Proof.PayIdeal.lean ====
/-
  The kernel's tile arithmetic read at an index, over the extended reals.

  At tile `(bi, bj)` of the 8 × 8 grid the body holds the tile `v0` of the matrix `x`, whose entry `(p, q)` is
  `x (bi * 1024 + p, bj * 1024 + q)`.  Each payload of the body is read here at explicit coordinates: the mask is
  set exactly on the global diagonal, the exponential tile is the matching block of `E`, its column sums and row sums
  are the parts `colPart` and `rowPart` of the column and row sums of `E`, the masked row sums are the parts
  `diagPart` of the rows of `D`, and the accumulator updates add these parts to what the accumulators hold.
-/
import proofs.«157649_j58007828300256_2_alg».proof.Proof.Gen.KernelIdeal.Skeleton
import proofs.«157649_j58007828300256_2_alg».proof.Proof.TileSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.NPairSpec Idealize.ShloMosaic Idealize.ShloMosaic.ValueIdx

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The mask at `(p, q)` compares the two global indices as 32-bit words. -/
theorem pay2_apply (i : grid0.Coords) (p q : Fin 1024) :
    k0_pay2 i (ix2 p q)
      = IntOp.cmpi .eq (BitVec.ofNat 32 (i 0).val * 1024#32 + BitVec.ofNat 32 p.val)
          (BitVec.ofNat 32 (i 1).val * 1024#32 + BitVec.ofNat 32 q.val) := by
  unfold k0_pay2
  dsimp only
  refine congrArg₂ (IntOp.cmpi CmpIPredicate.eq) ?_ ?_
  · refine (broadcastTo_a1_ab_apply _ broadcasts_S1024x1_S1024x1024 p q).trans ?_
    exact congrArg (fun w => BitVec.ofNat 32 (i 0).val * 1024#32 + w)
      (iota_single_apply Kind.tc S1024x1 32 0 iota_S1024x1_d0_w32 (ix2 p (0 : Fin 1)))
  · refine (broadcastTo_1b_ab_apply _ broadcasts_S1x1024_S1024x1024 p q).trans ?_
    exact congrArg (fun w => BitVec.ofNat 32 (i 1).val * 1024#32 + w)
      (iota_single_apply Kind.tc S1x1024 32 1 iota_S1x1024_d1_w32 (ix2 (0 : Fin 1) q))

/-- An integer comparison for equality answers the bit `1` exactly on equal words. -/
theorem cmpi_eq_one_iff {w : ℕ} (x y : BitVec w) : IntOp.cmpi .eq x y = 1#1 ↔ x = y := by
  show BitVec.ofBool (x == y) = 1#1 ↔ x = y
  rw [← beq_iff_eq (a := x) (b := y)]
  generalize (x == y) = b
  cases b <;> decide

/-- No wrap: a tile number below 8 and a position below 1024 glue to a 32-bit word's own value. -/
theorem word_toNat (a p : ℕ) (ha : a < 8) (hp : p < 1024) :
    (BitVec.ofNat 32 a * 1024#32 + BitVec.ofNat 32 p).toNat = a * 1024 + p := by
  rw [BitVec.toNat_add, BitVec.toNat_mul, BitVec.toNat_ofNat, BitVec.toNat_ofNat, BitVec.toNat_ofNat]
  omega

/-- The mask bit is set exactly where the global row index equals the global column index. -/
theorem mask_iff (i : grid0.Coords) (bi bj : Fin 8) (hi0 : (i 0).val = bi.val) (hi1 : (i 1).val = bj.val)
    (p q : Fin 1024) : k0_pay2 i (ix2 p q) = 1#1 ↔ glue bi p = glue bj q := by
  rw [pay2_apply, hi0, hi1, cmpi_eq_one_iff]
  have e1 := word_toNat bi.val p.val bi.isLt p.isLt
  have e2 := word_toNat bj.val q.val bj.isLt q.isLt
  constructor
  · intro hb
    refine Fin.ext ?_
    rw [glue_val, glue_val, ← e1, ← e2, hb]
  · intro h
    have hv : bi.val * 1024 + p.val = bj.val * 1024 + q.val := congrArg Fin.val h
    exact BitVec.eq_of_toNat_eq (by rw [e1, e2, hv])

/-- Off the diagonal the mask bit is `0`. -/
theorem mask_zero (i : grid0.Coords) (bi bj : Fin 8) (hi0 : (i 0).val = bi.val) (hi1 : (i 1).val = bj.val)
    (p q : Fin 1024) (h : ¬ glue bi p = glue bj q) : k0_pay2 i (ix2 p q) = 0#1 :=
  eq_zero_of_ne_one fun h1 => h ((mask_iff i bi bj hi0 hi1 p q).mp h1)

/-- The tile's entry of `E`: `exp (1 - B)` with `B` zero on the global diagonal. -/
theorem pay3_apply (i : grid0.Coords) (bi bj : Fin 8) (hi0 : (i 0).val = bi.val) (hi1 : (i 1).val = bj.val)
    (x : Mat) (v0 : Vec Ideal S1024x1024 .f32)
    (hv : ∀ (p q : Fin 1024), v0 (ix2 p q) = x (ix2 (glue bi p) (glue bj q))) (p q : Fin 1024) :
    k0_pay3 (F := Ideal) i v0 (ix2 p q) = E x (glue bi p) (glue bj q) := by
  unfold k0_pay3 E
  have hsel : select (k0_pay2 i) (broadcast S1024x1024 (FloatOps.ofBits (F := Ideal) FTy.f32 0x00000000#32)) v0 (ix2 p q)
      = (if glue bi p = glue bj q then 0 else x (ix2 (glue bi p) (glue bj q))) := by
    rw [select_apply]
    by_cases h : glue bi p = glue bj q
    · rw [(mask_iff i bi bj hi0 hi1 p q).mpr h, select_one, if_pos h, broadcast_apply]
      exact Ideal.ofBits_zero_f32
    · rw [mask_zero i bi bj hi0 hi1 p q h, select_zero, if_neg h, hv]
  exact congrArg (fun t => Ideal.exp (one - t)) hsel

/-- The index a reduction over axis 0 of a matrix inserts at `k` into `(q)` is `(k, q)`. -/
theorem lift0_eq (q k : Fin 1024) : reduces_S1024x1024_S1024_2.lift (ix1 q) k = ix2 k q := by
  funext a
  refine Fin.ext ?_
  match a with
  | ⟨0, _⟩ => rfl
  | ⟨1, _⟩ => rfl

/-- The index a reduction over axis 1 of a matrix inserts at `k` into `(p)` is `(p, k)`. -/
theorem lift1_eq (p k : Fin 1024) : reduces_S1024x1024_S1024.lift (ix1 p) k = ix2 p k := by
  funext a
  refine Fin.ext ?_
  match a with
  | ⟨0, _⟩ => rfl
  | ⟨1, _⟩ => rfl

/-- The tile's column sums of `E`: the part of a column of `E` inside tile row `bi`. -/
theorem pay4_apply (i : grid0.Coords) (bi bj : Fin 8) (hi0 : (i 0).val = bi.val) (hi1 : (i 1).val = bj.val)
    (x : Mat) (v0 : Vec Ideal S1024x1024 .f32)
    (hv : ∀ (p q : Fin 1024), v0 (ix2 p q) = x (ix2 (glue bi p) (glue bj q))) (q : Fin 1024) :
    k0_pay4 (F := Ideal) i v0 (ix2 (0 : Fin 1) q) = colPart x bi (glue bj q) := by
  unfold k0_pay4 colPart
  refine (shapeCast_a_1a_apply _ shapeCasts_S1024_S1x1024 (0 : Fin 1) q).trans ?_
  refine (Ideal.multiReduction_add_single (k0_pay3 (F := Ideal) i v0) 0x00000000#32
    reduces_S1024x1024_S1024_2 _ _ (ix1 q)).trans ?_
  show ∑ k : Fin 1024, k0_pay3 (F := Ideal) i v0 (reduces_S1024x1024_S1024_2.lift (ix1 q) k) = _
  refine Finset.sum_congr rfl fun k _ => ?_
  exact (congrArg (k0_pay3 (F := Ideal) i v0) (lift0_eq q k)).trans (pay3_apply i bi bj hi0 hi1 x v0 hv k q)

/-- The row accumulator's update: what it holds plus the part of a row of `E` inside tile column `bj`. -/
theorem pay8_apply (i : grid0.Coords) (bi bj : Fin 8) (hi0 : (i 0).val = bi.val) (hi1 : (i 1).val = bj.val)
    (x : Mat) (v0 : Vec Ideal S1024x1024 .f32)
    (hv : ∀ (p q : Fin 1024), v0 (ix2 p q) = x (ix2 (glue bi p) (glue bj q)))
    (acc : Vec Ideal S1024x1 .f32) (p : Fin 1024) :
    k0_pay8 (F := Ideal) i v0 acc (ix2 p (0 : Fin 1)) = acc (ix2 p 0) + rowPart x (glue bi p) bj := by
  unfold k0_pay8 rowPart
  rw [addf_apply]
  refine congrArg₂ (· + ·) ?_ ?_
  · exact congrFun (shapeCast_self acc shapeCasts_S1024x1_S1024x1) (ix2 p 0)
  · refine (shapeCast_a_a1_apply _ shapeCasts_S1024_S1024x1 p (0 : Fin 1)).trans ?_
    refine (Ideal.multiReduction_add_single (k0_pay3 (F := Ideal) i v0) 0x00000000#32
      reduces_S1024x1024_S1024 _ _ (ix1 p)).trans ?_
    show ∑ k : Fin 1024, k0_pay3 (F := Ideal) i v0 (reduces_S1024x1024_S1024.lift (ix1 p) k) = _
    refine Finset.sum_congr rfl fun k _ => ?_
    exact (congrArg (k0_pay3 (F := Ideal) i v0) (lift1_eq p k)).trans (pay3_apply i bi bj hi0 hi1 x v0 hv p k)

/-- The masked tile at `(p, q)`: the entry of `D`, the diagonal of `x` and zero elsewhere. -/
theorem masked_apply (i : grid0.Coords) (bi bj : Fin 8) (hi0 : (i 0).val = bi.val) (hi1 : (i 1).val = bj.val)
    (x : Mat) (v0 : Vec Ideal S1024x1024 .f32)
    (hv : ∀ (p q : Fin 1024), v0 (ix2 p q) = x (ix2 (glue bi p) (glue bj q))) (p q : Fin 1024) :
    select (k0_pay2 i) v0 (broadcast S1024x1024 (FloatOps.ofBits (F := Ideal) FTy.f32 0x00000000#32)) (ix2 p q)
      = D x (glue bi p) (glue bj q) := by
  unfold D
  rw [select_apply]
  by_cases h : glue bi p = glue bj q
  · rw [(mask_iff i bi bj hi0 hi1 p q).mpr h, select_one, if_pos h, hv]
  · rw [mask_zero i bi bj hi0 hi1 p q h, select_zero, if_neg h, broadcast_apply]
    exact Ideal.ofBits_zero_f32

/-- The diagonal accumulator's update: what it holds plus the part of a row of `D` inside tile column `bj`. -/
theorem pay9_apply (i : grid0.Coords) (bi bj : Fin 8) (hi0 : (i 0).val = bi.val) (hi1 : (i 1).val = bj.val)
    (x : Mat) (v0 : Vec Ideal S1024x1024 .f32)
    (hv : ∀ (p q : Fin 1024), v0 (ix2 p q) = x (ix2 (glue bi p) (glue bj q)))
    (acc : Vec Ideal S1024x1 .f32) (p : Fin 1024) :
    k0_pay9 (F := Ideal) i v0 acc (ix2 p (0 : Fin 1)) = acc (ix2 p 0) + diagPart x (glue bi p) bj := by
  unfold k0_pay9 diagPart
  rw [addf_apply]
  refine congrArg₂ (· + ·) ?_ ?_
  · exact congrFun (shapeCast_self acc shapeCasts_S1024x1_S1024x1) (ix2 p 0)
  · refine (shapeCast_a_a1_apply _ shapeCasts_S1024_S1024x1 p (0 : Fin 1)).trans ?_
    refine (Ideal.multiReduction_add_single
      (select (k0_pay2 i) v0 (broadcast S1024x1024 (FloatOps.ofBits (F := Ideal) FTy.f32 0x00000000#32)))
      0x00000000#32 reduces_S1024x1024_S1024 _ _ (ix1 p)).trans ?_
    show ∑ k : Fin 1024, select (k0_pay2 i) v0 (broadcast S1024x1024 (FloatOps.ofBits (F := Ideal) FTy.f32 0x00000000#32))
      (reduces_S1024x1024_S1024.lift (ix1 p) k) = _
    refine Finset.sum_congr rfl fun k _ => ?_
    exact (congrArg (select (k0_pay2 i) v0 (broadcast S1024x1024 (FloatOps.ofBits (F := Ideal) FTy.f32 0x00000000#32)))
      (lift1_eq p k)).trans (masked_apply i bi bj hi0 hi1 x v0 hv p k)

/-- The column accumulator's update: each of its eight rows gains the tile's column sums. -/
theorem pay1_apply (v20 : FVec Ideal S1x1024 .f32) (v42 : Vec Ideal S1x8x1024 .f32) (s : Fin 8) (q : Fin 1024) :
    k0_pay1 (F := Ideal) v20 v42 (ix3 (0 : Fin 1) s q) = v42 (ix3 0 s q) + v20 (ix2 0 q) := by
  unfold k0_pay1
  rw [addf_apply]
  refine congrArg₂ (· + ·) ?_ ?_
  · exact congrFun (shapeCast_self v42 shapeCasts_S1x8x1024_S1x8x1024) (ix3 0 s q)
  · refine (shapeCast_ab_1ab_apply _ shapeCasts_S8x1024_S1x8x1024 (0 : Fin 1) s q).trans ?_
    refine (broadcastTo_1b_ab_apply _ broadcasts_S1x1024_S8x1024 s q).trans ?_
    exact congrFun (shapeCast_self v20 shapeCasts_S1x1024_S1x1024) (ix2 0 q)

/-- The row accumulator's first value is zero. -/
theorem pay5_apply (y : S1024x1.Idx) : k0_pay5 (F := Ideal) y = 0 := by
  unfold k0_pay5
  rw [broadcast_apply]
  exact Ideal.ofBits_zero_f32

/-- The diagonal accumulator's first value is zero. -/
theorem pay6_apply (y : S1024x1.Idx) : k0_pay6 (F := Ideal) y = 0 := by
  unfold k0_pay6
  rw [broadcast_apply]
  exact Ideal.ofBits_zero_f32

/-- The column accumulator's first value is zero. -/
theorem pay7_apply (y : S1x8x8192.Idx) : k0_pay7 (F := Ideal) y = 0 := by
  unfold k0_pay7
  rw [broadcast_apply]
  exact Ideal.ofBits_zero_f32

end Cert.KernelIdeal.Pay

end
-- ==== Proof.AccSpec.lean ====
/-
  Adding the eight parts of a row one after the other, from the left, starting at zero.

  After `n` steps the running value is `foldParts f n`; after eight steps it is the sum of all parts.
-/
import proofs.«157649_j58007828300256_2_alg».proof.Proof.TileSpec

noncomputable section

namespace Cert.NPairSpec

open Idealize.ShloMosaic Idealize.ShloMosaic.ValueIdx

/-- The first `n` of the parts `f 0, f 1, …`, added from the left onto zero. -/
def foldParts (f : Fin 8 → EReal) : ℕ → EReal
  | 0 => 0
  | k + 1 => foldParts f k + (if h : k < 8 then f ⟨k, h⟩ else 0)

theorem foldParts_zero (f : Fin 8 → EReal) : foldParts f 0 = 0 := rfl

theorem foldParts_succ (f : Fin 8 → EReal) (k : ℕ) (h : k < 8) : foldParts f (k + 1) = foldParts f k + f ⟨k, h⟩ := by
  show foldParts f k + (if h : k < 8 then f ⟨k, h⟩ else 0) = _
  rw [dif_pos h]

/-- All eight parts: the sum. -/
theorem foldParts_eight (f : Fin 8 → EReal) : foldParts f 8 = ∑ a : Fin 8, f a := by
  rw [foldParts_succ f 7 (by omega), foldParts_succ f 6 (by omega), foldParts_succ f 5 (by omega), foldParts_succ f 4 (by omega),
    foldParts_succ f 3 (by omega), foldParts_succ f 2 (by omega), foldParts_succ f 1 (by omega), foldParts_succ f 0 (by omega),
    foldParts_zero, zero_add, Fin.sum_univ_eight]
  rfl

/-- The row sum, accumulated tile by tile. -/
theorem foldParts_row (x : Mat) (r : Fin 8192) : foldParts (rowPart x r) 8 = rowSum x r := by
  rw [foldParts_eight, rowSum_eq]

/-- The diagonal entry, accumulated tile by tile. -/
theorem foldParts_diag (x : Mat) (r : Fin 8192) : foldParts (diagPart x r) 8 = x (ix2 r r) := by
  rw [foldParts_eight, diag_eq]

end Cert.NPairSpec

end
-- ==== Proof.KernelIdealAcc.lean ====
/-
  The accumulators after every tile, as sums.

  Write `bi` for a tile's row number and `k` for its column number.  After tile `(bi, k)`:
  the row-sum accumulator holds, in row `p`, the first `k + 1` parts of row `bi * 1024 + p` of `E` added
  from the left; the diagonal accumulator the same of `D`; and the column-sum accumulator holds, in every
  one of its eight sublanes and in column `col`, the part of column `col` of `E` inside tile row `bi` when
  `col` lies in one of the first `k + 1` tile columns, and zero otherwise.  By induction along the row of tiles.
-/
import proofs.«157649_j58007828300256_2_alg».proof.Proof.KernelIdealCase
import proofs.«157649_j58007828300256_2_alg».proof.Proof.PayIdeal
import proofs.«157649_j58007828300256_2_alg».proof.Proof.AccSpec

set_option maxRecDepth 16384

noncomputable section

namespace Cert.KernelIdeal.Body

open Cert.KernelIdeal Cert.KernelIdeal.Gen Cert.KernelIdeal.Pay Cert.NPairSpec
open Idealize.ShloMosaic Idealize.ShloMosaic.TcCoe Idealize.ShloMosaic.ValueIdx
open Idealize.SL Idealize.SL.Sem

/-- What the accumulators hold after tile `(bi, k)`. -/
structure InvAt (x : Mat) (bi : Fin 8) (k : ℕ) (acc : Acc Ideal) : Prop where
  row : ∀ p : Fin 1024, acc.1 (ix2 p (0 : Fin 1)) = foldParts (rowPart x (glue bi p)) (k + 1)
  col : ∀ (s : Fin 8) (col : Fin 8192), acc.2.1 (ix3 (0 : Fin 1) s col) = if col.val / 1024 ≤ k then colPart x bi col else 0
  diag : ∀ p : Fin 1024, acc.2.2 (ix2 p (0 : Fin 1)) = foldParts (diagPart x (glue bi p)) (k + 1)

/-- The tile's columns, read through the partial store's rectangle. -/
theorem colRect_idx (i : grid0.Coords) (s : Fin 8) (q : Fin 1024) (col : Fin 8192) (h : col.val = 1024 * (i 1).val + q.val) :
    (colRect i).idx (ix3 (0 : Fin 1) s q) = ix3 (0 : Fin 1) s col := by
  funext a; apply Fin.ext
  show k0_off1 i a + 1 * ((ix3 (0 : Fin 1) s q) a).val = ((ix3 (0 : Fin 1) s col) a).val
  rw [k0_off1_eq i]
  match a with
  | ⟨0, _⟩ => rfl
  | ⟨1, _⟩ => show 0 + 1 * s.val = s.val; omega
  | ⟨2, _⟩ => show 1024 * (i 1).val + 1 * q.val = col.val; omega

theorem hx_of (i : grid0.Coords) (s : Fin 8) (q : Fin 1024) (col : Fin 8192) (h : col.val = 1024 * (i 1).val + q.val) :
    ∀ a : Fin 3, ((ix3 (0 : Fin 1) s col) a).val = (![0, 0, 1024 * (i 1).val] : Fin 3 → ℕ) a + ((ix3 (0 : Fin 1) s q) a).val := by
  intro a
  match a with
  | ⟨0, _⟩ => rfl
  | ⟨1, _⟩ => show s.val = 0 + s.val; omega
  | ⟨2, _⟩ => show col.val = 1024 * (i 1).val + q.val; exact h

/-- The first tile of a row of tiles. -/
theorem stepA_inv (c : Dev nD) (i : grid0.Coords) (bi : Fin 8) (hi0 : (i 0).val = bi.val) (hi1 : (i 1).val = (0 : Fin 8).val)
    (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : cond0 i) (x : Mat) (x0 : Vec Ideal S1024x1024 .f32)
    (hv : ∀ (p q : Fin 1024), x0 (ix2 p q) = x (ix2 (glue bi p) (glue (0 : Fin 8) q))) :
    InvAt x bi 0 (outA c i arg2 harg2 arg3 harg3 arg4 harg4 arg5 harg5 hc0 x0) := by
  have hi1' : (i 1).val = 0 := hi1
  refine ⟨fun p => ?_, fun s col => ?_, fun p => ?_⟩
  · rw [outA_1, pay8_apply (i := i) (bi := bi) (bj := 0) (hi0 := hi0) (hi1 := hi1) (x := x) (v0 := x0) (hv := hv), pay5_apply,
      foldParts_succ _ 0 (by omega), foldParts_zero]
    rfl
  · by_cases hcol : col.val / 1024 ≤ 0
    · rw [if_pos hcol]
      have hq : col.val < 1024 := by omega
      have hglue : glue (0 : Fin 8) ⟨col.val, hq⟩ = col := Fin.ext (by show (0 : Fin 8).val * 1024 + col.val = col.val; simp)
      rw [outA_2_mem c i arg2 harg2 arg3 harg3 arg4 harg4 arg5 harg5 hc0 x0 (ix3 (0 : Fin 1) s col) (ix3 (0 : Fin 1) s ⟨col.val, hq⟩)
        (hx_of i s ⟨col.val, hq⟩ col (by show col.val = 1024 * (i 1).val + col.val; omega)),
        pay1_apply]
      show k0_pay7 (F := Ideal) ((colRect i).idx (ix3 (0 : Fin 1) s ⟨col.val, hq⟩)) + _ = _
      rw [pay7_apply, pay4_apply (i := i) (bi := bi) (bj := 0) (hi0 := hi0) (hi1 := hi1) (x := x) (v0 := x0) (hv := hv), hglue, zero_add]
    · rw [if_neg hcol, outA_2_not_mem c i arg2 harg2 arg3 harg3 arg4 harg4 arg5 harg5 hc0 x0 (ix3 (0 : Fin 1) s col) (Or.inr (by show 1024 * (i 1).val + 1024 ≤ col.val; omega)),
        pay7_apply]
  · rw [outA_3, pay9_apply (i := i) (bi := bi) (bj := 0) (hi0 := hi0) (hi1 := hi1) (x := x) (v0 := x0) (hv := hv), pay6_apply,
      foldParts_succ _ 0 (by omega), foldParts_zero]
    rfl

/-- A later tile, over what the tile before left. -/
theorem stepB_inv (c : Dev nD) (i : grid0.Coords) (bi bj : Fin 8) (hi0 : (i 0).val = bi.val) (hi1 : (i 1).val = bj.val)
    (k : ℕ) (hk : bj.val = k + 1)
    (arg2 : Memref sig .tc .vmem S1024x1024 .f32) (harg2 : arg2.IsWhole) (arg3 : Memref sig .tc .vmem S1024x1 .f32) (harg3 : arg3.IsWhole) (arg4 : Memref sig .tc .vmem S1x8x8192 .f32) (harg4 : arg4.IsWhole) (arg5 : Memref sig .tc .vmem S1024x1 .f32) (harg5 : arg5.IsWhole) (hc0 : ¬cond0 i) (x : Mat) (x0 : Vec Ideal S1024x1024 .f32)
    (hv : ∀ (p q : Fin 1024), x0 (ix2 p q) = x (ix2 (glue bi p) (glue bj q)))
    (prev : Acc Ideal) (hprev : InvAt x bi k prev) :
    InvAt x bi (k + 1) (outB c i arg2 harg2 arg3 harg3 arg4 harg4 arg5 harg5 hc0 x0 prev) := by
  have hbj : bj = ⟨k + 1, by have := bj.isLt; omega⟩ := Fin.ext hk
  refine ⟨fun p => ?_, fun s col => ?_, fun p => ?_⟩
  · rw [outB_1, pay8_apply (i := i) (bi := bi) (bj := bj) (hi0 := hi0) (hi1 := hi1) (x := x) (v0 := x0) (hv := hv), hprev.row p,
      foldParts_succ _ (k + 1) (by have := bj.isLt; omega)]
    exact congrArg (fun b => foldParts (rowPart x (glue bi p)) (k + 1) + rowPart x (glue bi p) b) hbj
  · by_cases hmem : col.val / 1024 = k + 1
    · have hq : col.val % 1024 < 1024 := Nat.mod_lt _ (by omega)
      have hcolv : col.val = 1024 * (i 1).val + col.val % 1024 := by rw [hi1, hk]; omega
      have hglue : glue bj ⟨col.val % 1024, hq⟩ = col := Fin.ext (by show bj.val * 1024 + col.val % 1024 = col.val; rw [hk]; omega)
      rw [if_pos (by omega), outB_2_mem c i arg2 harg2 arg3 harg3 arg4 harg4 arg5 harg5 hc0 x0 prev (ix3 (0 : Fin 1) s col) (ix3 (0 : Fin 1) s ⟨col.val % 1024, hq⟩)
        (hx_of i s ⟨col.val % 1024, hq⟩ col hcolv), pay1_apply]
      show prev.2.1 ((colRect i).idx (ix3 (0 : Fin 1) s ⟨col.val % 1024, hq⟩)) + _ = _
      rw [colRect_idx i s ⟨col.val % 1024, hq⟩ col hcolv, hprev.col s col, if_neg (by omega),
        pay4_apply (i := i) (bi := bi) (bj := bj) (hi0 := hi0) (hi1 := hi1) (x := x) (v0 := x0) (hv := hv), hglue, zero_add]
    · rw [outB_2_not_mem c i arg2 harg2 arg3 harg3 arg4 harg4 arg5 harg5 hc0 x0 prev (ix3 (0 : Fin 1) s col)
        (by show col.val < 1024 * (i 1).val ∨ 1024 * (i 1).val + 1024 ≤ col.val; rw [hi1, hk]; omega), hprev.col s col]
      exact if_congr (by omega) rfl rfl
  · rw [outB_3, pay9_apply (i := i) (bi := bi) (bj := bj) (hi0 := hi0) (hi1 := hi1) (x := x) (v0 := x0) (hv := hv), hprev.diag p,
      foldParts_succ _ (k + 1) (by have := bj.isLt; omega)]
    exact congrArg (fun b => foldParts (diagPart x (glue bi p)) (k + 1) + diagPart x (glue bi p) b) hbj

end Cert.KernelIdeal.Body

end
-- ==== Proof.KernelIdealFinal.lean ====
/-
  The accumulators after every tile of the grid.

  Tile `t` of the row-major walk is tile `(t / 8, t % 8)` of the matrix, and the input window's block there
  is that tile.  The statement about one tile (first of its row of tiles, or later) then holds at every
  position of the walk, by induction on the position.
-/
import proofs.«157649_j58007828300256_2_alg».proof.Proof.KernelIdealAcc
import Idealize.ShloMosaic.Lib.StableHlo.Run

set_option maxRecDepth 16384

noncomputable section

namespace Cert.KernelIdeal.Body

open Cert.KernelIdeal Cert.KernelIdeal.Gen Cert.KernelIdeal.Pay Cert.NPairSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The matrix as the region finds it. -/
abbrev X (c : Dev nD) : Mat := V m c main_arg0

/-! ## The grid, decided once -/

theorem coords_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 2) = t.val / 8 ∧ win0_3.index t (1 : Fin 2) = 0 :=
  (by decide +kernel : ∀ t : Fin grid0.N, _)

/-- The input's block at tile `t` is tile `(t / 8, t % 8)` of the matrix. -/
theorem iblk_tile (c : Dev nD) (t : Fin cfg0.N) (bi bj : Fin 8) (hbi : bi.val = t.val / 8) (hbj : bj.val = t.val % 8) (p q : Fin 1024) :
    (iblk m c 0 t : Vec Ideal S1024x1024 .f32) (ix2 p q) = X m c (ix2 (glue bi p) (glue bj q)) := by
  obtain ⟨e0, e1, -⟩ := idx_facts t
  unfold iblk
  rw [View.read_apply]
  show V m c main_arg0 _ = V m c main_arg0 _
  congr 1
  funext a; apply Fin.ext
  match a with
  | ⟨0, _⟩ => show win0_0.index t (0 : Fin 2) * 1024 + 1 * p.val = bi.val * 1024 + p.val; rw [e0, hbi]; omega
  | ⟨1, _⟩ => show win0_0.index t (1 : Fin 2) * 1024 + 1 * q.val = bj.val * 1024 + q.val; rw [e1, hbj]; omega

/-! ## The accumulators after every tile -/

theorem inv (c : Dev nD) : ∀ (n : ℕ) (h : n < cfg0.N) (bi : Fin 8) (k : ℕ), bi.val = n / 8 → k = n % 8 →
    InvAt (X m c) bi k (outsAt m c n h)
  | 0, h, bi, k, hb, hk => by
    subst hk
    obtain ⟨e0, e1⟩ := coords_facts ⟨0, h⟩
    rw [outsAt_A m c ⟨0, h⟩ (Nat.zero_mod _)]
    unfold stepA
    exact stepA_inv c (grid0.coords ⟨0, h⟩) bi (by rw [e0, hb]) (by rw [e1]; rfl) (ms0 ⟨0, h⟩) (hs0 ⟨0, h⟩) (ms1 ⟨0, h⟩) (hs1 ⟨0, h⟩)
      (ms2 ⟨0, h⟩) (hs2 ⟨0, h⟩) (ms3 ⟨0, h⟩) (hs3 ⟨0, h⟩) ((hcond0 ⟨0, h⟩).mpr (Nat.zero_mod _)) (X m c) (iblk m c 0 ⟨0, h⟩)
      (fun p q => iblk_tile m c ⟨0, h⟩ bi 0 hb rfl p q)
  | n + 1, h, bi, k, hb, hk => by
    have hN : n + 1 < 64 := lt_of_lt_of_eq h N_0
    obtain ⟨e0, e1⟩ := coords_facts ⟨n + 1, h⟩
    by_cases h0 : (n + 1) % 8 = 0
    · have hk0 : k = 0 := by omega
      subst hk0
      rw [outsAt_A m c ⟨n + 1, h⟩ h0]
      unfold stepA
      exact stepA_inv c (grid0.coords ⟨n + 1, h⟩) bi (by rw [e0, hb]) (by rw [e1]; exact h0) (ms0 ⟨n + 1, h⟩) (hs0 ⟨n + 1, h⟩)
        (ms1 ⟨n + 1, h⟩) (hs1 ⟨n + 1, h⟩) (ms2 ⟨n + 1, h⟩) (hs2 ⟨n + 1, h⟩) (ms3 ⟨n + 1, h⟩) (hs3 ⟨n + 1, h⟩)
        ((hcond0 ⟨n + 1, h⟩).mpr h0) (X m c) (iblk m c 0 ⟨n + 1, h⟩)
        (fun p q => iblk_tile m c ⟨n + 1, h⟩ bi 0 hb (by show (0 : ℕ) = (n + 1) % 8; omega) p q)
    · have ih := inv c n (Nat.lt_of_succ_lt h) bi (n % 8) (by omega) rfl
      have hk' : k = n % 8 + 1 := by omega
      subst hk'
      rw [outsAt_B m c ⟨n + 1, h⟩ h0]
      unfold stepB
      exact stepB_inv c (grid0.coords ⟨n + 1, h⟩) bi ⟨(n + 1) % 8, by omega⟩ (by rw [e0, hb]) (by rw [e1]) (n % 8)
        (by show (n + 1) % 8 = n % 8 + 1; omega) (ms0 ⟨n + 1, h⟩) (hs0 ⟨n + 1, h⟩)
        (ms1 ⟨n + 1, h⟩) (hs1 ⟨n + 1, h⟩) (ms2 ⟨n + 1, h⟩) (hs2 ⟨n + 1, h⟩) (ms3 ⟨n + 1, h⟩) (hs3 ⟨n + 1, h⟩)
        (fun hc => h0 ((hcond0 ⟨n + 1, h⟩).mp hc)) (X m c) (iblk m c 0 ⟨n + 1, h⟩)
        (fun p q => iblk_tile m c ⟨n + 1, h⟩ bi ⟨(n + 1) % 8, by omega⟩ hb rfl p q) _ ih

end Cert.KernelIdeal.Body

end
-- ==== Proof.KernelIdealArrays.lean ====
/-
  The three result arrays after the whole grid.

  The accumulators are written back after the last tile of each row of tiles, each to its own block of its
  array, and the eight blocks tile the array.  So the first array ends holding every row sum of `E`, the
  third the diagonal of the matrix, and the second, in each of its eight sublanes, the partial column sums
  of each row of tiles.
-/
import proofs.«157649_j58007828300256_2_alg».proof.Proof.KernelIdealFinal

set_option maxRecDepth 16384

noncomputable section

namespace Cert.KernelIdeal.Body

open Cert.KernelIdeal Cert.KernelIdeal.Gen Cert.NPairSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The result arrays -/

/-- What the three arrays end holding: every row sum of `E`; in each sublane the partial column sums of each
    row of tiles; the diagonal. -/
abbrev G1 (c : Dev nD) : Buf (Elt Ideal) ((c : Thread nD τ).loc main_v0_0) := fun j => rowSum (X m c) (j 0)
abbrev G2 (c : Dev nD) : Buf (Elt Ideal) ((c : Thread nD τ).loc main_v0_1) := fun j => colPart (X m c) (j 0) (j 2)
abbrev G3 (c : Dev nD) : Buf (Elt Ideal) ((c : Thread nD τ).loc main_v0_2) := fun j => X m c (ix2 (j 0) (j 0))

/-- After the last tile of a row of tiles the accumulators hold the finished sums. -/
theorem last_row (c : Dev nD) (t : Fin cfg0.N) (h7 : t.val % 8 = 7) (bi : Fin 8) (hb : bi.val = t.val / 8) (p : Fin 1024) :
    (outsAt m c t.val t.isLt).1 (ix2 p (0 : Fin 1)) = rowSum (X m c) (glue bi p) := by
  rw [(inv m c t.val t.isLt bi 7 hb h7.symm).row p, foldParts_row]

theorem last_diag (c : Dev nD) (t : Fin cfg0.N) (h7 : t.val % 8 = 7) (bi : Fin 8) (hb : bi.val = t.val / 8) (p : Fin 1024) :
    (outsAt m c t.val t.isLt).2.2 (ix2 p (0 : Fin 1)) = X m c (ix2 (glue bi p) (glue bi p)) := by
  rw [(inv m c t.val t.isLt bi 7 hb h7.symm).diag p, foldParts_diag]

theorem last_col (c : Dev nD) (t : Fin cfg0.N) (h7 : t.val % 8 = 7) (bi : Fin 8) (hb : bi.val = t.val / 8) (s : Fin 8) (col : Fin 8192) :
    (outsAt m c t.val t.isLt).2.1 (ix3 (0 : Fin 1) s col) = colPart (X m c) bi col := by
  rw [(inv m c t.val t.isLt bi 7 hb h7.symm).col s col, if_pos (by have := col.isLt; omega)]

set_option maxHeartbeats 2000000 in
/-- What the write-back after tile `t` writes is block `t` of the finished row sums. -/
theorem flushed1_eq (c : Dev nD) (t : Fin cfg0.N) (hf : (cfg0.win 1).flush t = true) :
    (dats m 0 c).flushed 1 t = ((cfg0.win 1).blk t).view.read (Elt Ideal) (G1 m c) := by
  have hN : t.val < 64 := lt_of_lt_of_eq t.isLt N_0
  have h7 : t.val % 8 = 7 := (flush0_1 t).mp hf
  obtain ⟨-, -, e2, e3, -⟩ := idx_facts t
  show (cfg0.win 1).cut (grid0.coords t) ((dats m 0 c).after 1 t) = _
  rw [after1]
  funext j
  have hj0 : (j 0).val < 1024 := (j 0).isLt
  have hj1 : (j 1).val < 1 := (j 1).isLt
  have hj : j = ix2 (⟨(j 0).val, hj0⟩ : Fin 1024) (0 : Fin 1) := funext fun a => match a with
    | ⟨0, _⟩ => rfl
    | ⟨1, _⟩ => Fin.ext (by show (j 1).val = 0; omega)
  show (outsAt m c t.val t.isLt).1 j = rowSum (X m c) ((((cfg0.win 1).blk t).view.emb j) 0)
  rw [hj, last_row m c t h7 ⟨t.val / 8, by omega⟩ rfl]
  have he : glue (⟨t.val / 8, by omega⟩ : Fin 8) ⟨(j 0).val, hj0⟩ = (((cfg0.win 1).blk t).view.emb (ix2 (⟨(j 0).val, hj0⟩ : Fin 1024) (0 : Fin 1))) 0 := by
    apply Fin.ext
    show t.val / 8 * 1024 + (j 0).val = win0_1.index t (0 : Fin 2) * 1024 + 1 * (j 0).val
    rw [e2]; omega
  rw [he]

set_option maxHeartbeats 2000000 in
theorem flushed3_eq (c : Dev nD) (t : Fin cfg0.N) (hf : (cfg0.win 3).flush t = true) :
    (dats m 0 c).flushed 3 t = ((cfg0.win 3).blk t).view.read (Elt Ideal) (G3 m c) := by
  have hN : t.val < 64 := lt_of_lt_of_eq t.isLt N_0
  have h7 : t.val % 8 = 7 := (flush0_3 t).mp hf
  obtain ⟨-, -, -, -, -, -, -, e7, e8⟩ := idx_facts t
  show (cfg0.win 3).cut (grid0.coords t) ((dats m 0 c).after 3 t) = _
  rw [after3]
  funext j
  have hj0 : (j 0).val < 1024 := (j 0).isLt
  have hj1 : (j 1).val < 1 := (j 1).isLt
  have hj : j = ix2 (⟨(j 0).val, hj0⟩ : Fin 1024) (0 : Fin 1) := funext fun a => match a with
    | ⟨0, _⟩ => rfl
    | ⟨1, _⟩ => Fin.ext (by show (j 1).val = 0; omega)
  show (outsAt m c t.val t.isLt).2.2 j = X m c (ix2 ((((cfg0.win 3).blk t).view.emb j) 0) ((((cfg0.win 3).blk t).view.emb j) 0))
  rw [hj, last_diag m c t h7 ⟨t.val / 8, by omega⟩ rfl]
  have he : glue (⟨t.val / 8, by omega⟩ : Fin 8) ⟨(j 0).val, hj0⟩ = (((cfg0.win 3).blk t).view.emb (ix2 (⟨(j 0).val, hj0⟩ : Fin 1024) (0 : Fin 1))) 0 := by
    apply Fin.ext
    show t.val / 8 * 1024 + (j 0).val = win0_3.index t (0 : Fin 2) * 1024 + 1 * (j 0).val
    rw [e7]; omega
  rw [he]

set_option maxHeartbeats 2000000 in
theorem flushed2_eq (c : Dev nD) (t : Fin cfg0.N) (hf : (cfg0.win 2).flush t = true) :
    (dats m 0 c).flushed 2 t = ((cfg0.win 2).blk t).view.read (Elt Ideal) (G2 m c) := by
  have hN : t.val < 64 := lt_of_lt_of_eq t.isLt N_0
  have h7 : t.val % 8 = 7 := (flush0_2 t).mp hf
  obtain ⟨-, -, -, -, e4, e5, e6, -⟩ := idx_facts t
  show (cfg0.win 2).cut (grid0.coords t) ((dats m 0 c).after 2 t) = _
  rw [after2]
  funext j
  have hj0 : (j 0).val < 1 := (j 0).isLt
  have hj1 : (j 1).val < 8 := (j 1).isLt
  have hj2 : (j 2).val < 8192 := (j 2).isLt
  have hj : j = ix3 (0 : Fin 1) (⟨(j 1).val, hj1⟩ : Fin 8) (⟨(j 2).val, hj2⟩ : Fin 8192) := funext fun a => match a with
    | ⟨0, _⟩ => Fin.ext (by show (j 0).val = 0; omega)
    | ⟨1, _⟩ => rfl
    | ⟨2, _⟩ => rfl
  show (outsAt m c t.val t.isLt).2.1 j = colPart (X m c) ((((cfg0.win 2).blk t).view.emb j) 0) ((((cfg0.win 2).blk t).view.emb j) 2)
  rw [hj, last_col m c t h7 ⟨t.val / 8, by omega⟩ rfl]
  congr 1
  · apply Fin.ext
    show t.val / 8 = win0_2.index t (0 : Fin 3) * 1 + 1 * 0
    rw [e4]; omega
  · apply Fin.ext
    show (j 2).val = win0_2.index t (2 : Fin 3) * 8192 + 1 * (j 2).val
    rw [e6]; omega

/-- An index lies in the block written back after tile `t` iff each coordinate lies in the block's range. -/
theorem mem_blk1 (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0_0).slice (win0_1.rect t)).set ↔ _
  rw [View.set_slice_whole, Rect.mem_set_unit]
  exact Iff.rfl

theorem mem_blk2 (t : Fin cfg0.N) (i : S8x8x8192.Idx) :
    i ∈ ((cfg0.win 2).blk t).view.set ↔ ∀ a : Fin 3, win0_2.index t a * S1x8x8192.size a ≤ (i a).val ∧ (i a).val < win0_2.index t a * S1x8x8192.size a + S1x8x8192.size a := by
  show i ∈ ((View.whole main_v0_1).slice (win0_2.rect t)).set ↔ _
  rw [View.set_slice_whole, Rect.mem_set_unit]
  exact Iff.rfl

theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_2).slice (win0_3.rect t)).set ↔ _
  rw [View.set_slice_whole, Rect.mem_set_unit]
  exact Iff.rfl

/-- The last tile of row of tiles `b`. -/
def lastOf (b : ℕ) (hb : b < 8) : Fin cfg0.N := ⟨8 * b + 7, by rw [show cfg0.N = 64 from N_0]; omega⟩

theorem final1 (c : Dev nD) : (dats m 0 c).arrAt 1 cfg0.N = G1 m c :=
  (dats m 0 c).arrAt_eq_of_cover 1 (G1 m c) (flushed1_eq m c) fun i => by
    have hi0 : (i 0).val < 8192 := (i 0).isLt
    have hi1 : (i 1).val < 1 := (i 1).isLt
    refine ⟨lastOf ((i 0).val / 1024) (by omega), (flush0_1 _).mpr (by show (8 * ((i 0).val / 1024) + 7) % 8 = 7; omega), ?_⟩
    obtain ⟨-, -, e2, e3, -⟩ := idx_facts (lastOf ((i 0).val / 1024) (by omega))
    have ev : (lastOf ((i 0).val / 1024) (by omega)).val / 8 = (i 0).val / 1024 := by show (8 * ((i 0).val / 1024) + 7) / 8 = _; omega
    rw [mem_blk1]
    intro a
    match a with
    | ⟨0, _⟩ => show win0_1.index _ (0 : Fin 2) * 1024 ≤ (i 0).val ∧ (i 0).val < win0_1.index _ (0 : Fin 2) * 1024 + 1024; rw [e2, ev]; omega
    | ⟨1, _⟩ => show win0_1.index _ (1 : Fin 2) * 1 ≤ (i 1).val ∧ (i 1).val < win0_1.index _ (1 : Fin 2) * 1 + 1; rw [e3]; omega

theorem final3 (c : Dev nD) : (dats m 0 c).arrAt 3 cfg0.N = G3 m c :=
  (dats m 0 c).arrAt_eq_of_cover 3 (G3 m c) (flushed3_eq m c) fun i => by
    have hi0 : (i 0).val < 8192 := (i 0).isLt
    have hi1 : (i 1).val < 1 := (i 1).isLt
    refine ⟨lastOf ((i 0).val / 1024) (by omega), (flush0_3 _).mpr (by show (8 * ((i 0).val / 1024) + 7) % 8 = 7; omega), ?_⟩
    obtain ⟨-, -, -, -, -, -, -, e7, e8⟩ := idx_facts (lastOf ((i 0).val / 1024) (by omega))
    have ev : (lastOf ((i 0).val / 1024) (by omega)).val / 8 = (i 0).val / 1024 := by show (8 * ((i 0).val / 1024) + 7) / 8 = _; omega
    rw [mem_blk3]
    intro a
    match a with
    | ⟨0, _⟩ => show win0_3.index _ (0 : Fin 2) * 1024 ≤ (i 0).val ∧ (i 0).val < win0_3.index _ (0 : Fin 2) * 1024 + 1024; rw [e7, ev]; omega
    | ⟨1, _⟩ => show win0_3.index _ (1 : Fin 2) * 1 ≤ (i 1).val ∧ (i 1).val < win0_3.index _ (1 : Fin 2) * 1 + 1; rw [e8]; omega

theorem final2 (c : Dev nD) : (dats m 0 c).arrAt 2 cfg0.N = G2 m c :=
  (dats m 0 c).arrAt_eq_of_cover 2 (G2 m c) (flushed2_eq m c) fun i => by
    have hi0 : (i 0).val < 8 := (i 0).isLt
    have hi1 : (i 1).val < 8 := (i 1).isLt
    have hi2 : (i 2).val < 8192 := (i 2).isLt
    refine ⟨lastOf (i 0).val hi0, (flush0_2 _).mpr (by show (8 * (i 0).val + 7) % 8 = 7; omega), ?_⟩
    obtain ⟨-, -, -, -, e4, e5, e6, -⟩ := idx_facts (lastOf (i 0).val hi0)
    have ev : (lastOf (i 0).val hi0).val / 8 = (i 0).val := by show (8 * (i 0).val + 7) / 8 = _; omega
    rw [mem_blk2]
    intro a
    match a with
    | ⟨0, _⟩ => show win0_2.index _ (0 : Fin 3) * 1 ≤ (i 0).val ∧ (i 0).val < win0_2.index _ (0 : Fin 3) * 1 + 1; rw [e4, ev]; omega
    | ⟨1, _⟩ => show win0_2.index _ (1 : Fin 3) * 8 ≤ (i 1).val ∧ (i 1).val < win0_2.index _ (1 : Fin 3) * 8 + 8; rw [e5]; omega
    | ⟨2, _⟩ => show win0_2.index _ (2 : Fin 3) * 8192 ≤ (i 2).val ∧ (i 2).val < win0_2.index _ (2 : Fin 3) * 8192 + 8192; rw [e6]; omega

end Cert.KernelIdeal.Body

end
-- ==== Proof.KernelTail.lean ====
/-
  The host operations that follow the kernel's region, read at the extended reals.

  The region leaves three arrays: the row sums `a1` (one column of 8192 entries), eight partial column
  sums `a2` (each held in eight equal copies, of which the first is read) and the diagonal `a3` (one column).
  The host adds the eight partial columns, adds the row sums, takes the logarithm, adds the diagonal,
  squares, sums the 8192 squares and divides by the float 16384.  When the three arrays hold the row
  sums, the partial column sums and the diagonal of the specification's matrix, that number is the loss.
-/
import proofs.«157649_j58007828300256_2_alg».proof.Proof.Gen.KernelIdeal
import proofs.«157649_j58007828300256_2_alg».proof.Proof.TileSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tail

open Idealize.ShloMosaic Idealize.ShloMosaic.ValueIdx Cert.KernelIdeal.Gen

/-- The host operations after the region, as one term of the three result arrays. -/
def tail (a1 : FVec Ideal S8192x1 .f32) (a2 : FVec Ideal S8x8x8192 .f32) (a3 : FVec Ideal S8192x1 .f32) : FVec Ideal S_ .f32 :=
  Host.divf
    (Host.reduceAdd
      (mulf
        (addf (Host.log (addf (shapeCast S8192 a1 shapeCasts_S8192x1_S8192)
            (Host.reduceAdd (shapeCast S8x8192 (extractStridedSlice S8x1x8192 ![0, 0, 0] a2 slices_S8x8x8192_S8x1x8192_0_0_0) shapeCasts_S8x1x8192_S8x8192)
              (constant S_ .f32 0#32) reducesTo_S8x8192_S8192_d0 h_S_)))
          (shapeCast S8192 a3 shapeCasts_S8192x1_S8192))
        (addf (Host.log (addf (shapeCast S8192 a1 shapeCasts_S8192x1_S8192)
            (Host.reduceAdd (shapeCast S8x8192 (extractStridedSlice S8x1x8192 ![0, 0, 0] a2 slices_S8x8x8192_S8x1x8192_0_0_0) shapeCasts_S8x1x8192_S8x8192)
              (constant S_ .f32 0#32) reducesTo_S8x8192_S8192_d0 h_S_)))
          (shapeCast S8192 a3 shapeCasts_S8192x1_S8192)))
      (constant S_ .f32 0#32) reducesTo_S8192_S_d0 h_S_)
    (constant S_ .f32 1182793728#32)

/-- A column of 8192 entries recast as a row reads, at `r`, the column's entry `(r, 0)`. -/
theorem cast_col_apply (a : FVec Ideal S8192x1 .f32) (r : Fin 8192) :
    shapeCast S8192 a shapeCasts_S8192x1_S8192 (ix1 r) = a (ix2 r (0 : Fin 1)) := by
  refine shapeCast_apply a shapeCasts_S8192x1_S8192 (ix1 r) (ix2 r (0 : Fin 1)) ?_
  rw [Shape.rowMajor_val_two, Shape.rowMajor_val_one]
  show r.val * 1 + 0 = r.val
  omega

/-- The first copy of each partial column, as eight rows: entry `(a, c)` is the array's entry `(a, 0, c)`. -/
theorem rows_apply (a2 : FVec Ideal S8x8x8192 .f32) (a : Fin 8) (c : Fin 8192) :
    shapeCast S8x8192 (extractStridedSlice S8x1x8192 ![0, 0, 0] a2 slices_S8x8x8192_S8x1x8192_0_0_0)
        shapeCasts_S8x1x8192_S8x8192 (ix2 a c)
      = a2 (ix3 a (0 : Fin 8) c) := by
  refine (shapeCast_apply _ shapeCasts_S8x1x8192_S8x8192 (ix2 a c) (ix3 a (0 : Fin 1) c) ?_).trans ?_
  · rw [Shape.rowMajor_val_three, Shape.rowMajor_val_two]
    show (a.val * 1 + 0) * 8192 + c.val = a.val * 8192 + c.val
    omega
  · refine extractStridedSlice_apply ![0, 0, 0] a2 slices_S8x8x8192_S8x1x8192_0_0_0 (ix3 a (0 : Fin 1) c)
      (ix3 a (0 : Fin 8) c) fun b => ?_
    match b with
    | ⟨0, _⟩ => show a.val = 0 + a.val; omega
    | ⟨1, _⟩ => show 0 = 0 + 0; rfl
    | ⟨2, _⟩ => show c.val = 0 + c.val; omega

/-- The host's sum of eight rows from the float zero is, at `c`, the sum of the eight entries of column `c`. -/
theorem reduce_rows_apply (y : FVec Ideal S8x8192 .f32) (c : Fin 8192) :
    Host.reduceAdd y (constant S_ .f32 0#32) reducesTo_S8x8192_S8192_d0 h_S_ (ix1 c) = ∑ a : Fin 8, y (ix2 a c) := by
  simp only [Host.reduceAdd, Ideal.hostReduceAdd_def]
  refine (Ideal.hostReduceAdd_single reducesTo_S8x8192_S8192_d0 (by decide) y _ (ix1 c)).trans ?_
  show Ideal.ofBits .f32 0x00000000#32 + _ = _
  rw [Ideal.ofBits_zero_f32, zero_add]
  refine Finset.sum_congr rfl fun a _ => ?_
  exact congrArg y (funext fun b => Fin.ext (by match b with | ⟨0, _⟩ => rfl | ⟨1, _⟩ => rfl))

/-- The eight partial columns added: at `c` the sum over the eight parts of the array's entry `(a, 0, c)`. -/
theorem col_apply (a2 : FVec Ideal S8x8x8192 .f32) (c : Fin 8192) :
    Host.reduceAdd (shapeCast S8x8192 (extractStridedSlice S8x1x8192 ![0, 0, 0] a2 slices_S8x8x8192_S8x1x8192_0_0_0) shapeCasts_S8x1x8192_S8x8192)
        (constant S_ .f32 0#32) reducesTo_S8x8192_S8192_d0 h_S_ (ix1 c)
      = ∑ a : Fin 8, a2 (ix3 a (0 : Fin 8) c) := by
  rw [reduce_rows_apply]
  exact Finset.sum_congr rfl fun a _ => rows_apply a2 a c

/-- The entry before squaring: the logarithm of row sums plus added partial columns, plus the diagonal. -/
def pre (a1 : FVec Ideal S8192x1 .f32) (a2 : FVec Ideal S8x8x8192 .f32) (a3 : FVec Ideal S8192x1 .f32) : FVec Ideal S8192 .f32 :=
  addf (Host.log (addf (shapeCast S8192 a1 shapeCasts_S8192x1_S8192)
      (Host.reduceAdd (shapeCast S8x8192 (extractStridedSlice S8x1x8192 ![0, 0, 0] a2 slices_S8x8x8192_S8x1x8192_0_0_0) shapeCasts_S8x1x8192_S8x8192)
        (constant S_ .f32 0#32) reducesTo_S8x8192_S8192_d0 h_S_)))
    (shapeCast S8192 a3 shapeCasts_S8192x1_S8192)

/-- The tail squares that entry, sums and divides. -/
theorem tail_eq_pre (a1 : FVec Ideal S8192x1 .f32) (a2 : FVec Ideal S8x8x8192 .f32) (a3 : FVec Ideal S8192x1 .f32) :
    tail a1 a2 a3
      = Host.divf (Host.reduceAdd (mulf (pre a1 a2 a3) (pre a1 a2 a3)) (constant S_ .f32 0#32) reducesTo_S8192_S_d0 h_S_)
          (constant S_ .f32 0x46800000#32) := rfl

/-- When the three arrays hold the row sums, the partial column sums and the diagonal, that entry is the loss's term. -/
theorem pre_apply (x : Cert.NPairSpec.Mat) (a1 : FVec Ideal S8192x1 .f32) (a2 : FVec Ideal S8x8x8192 .f32) (a3 : FVec Ideal S8192x1 .f32)
    (h1 : ∀ r : Fin 8192, a1 (ix2 r (0 : Fin 1)) = Cert.NPairSpec.rowSum x r)
    (h2 : ∀ (a : Fin 8) (s : Fin 8) (col : Fin 8192), a2 (ix3 a s col) = Cert.NPairSpec.colPart x a col)
    (h3 : ∀ r : Fin 8192, a3 (ix2 r (0 : Fin 1)) = x (ix2 r r)) (r : Fin 8192) :
    pre a1 a2 a3 (ix1 r) = Cert.NPairSpec.term x r := by
  show Ideal.log (shapeCast S8192 a1 shapeCasts_S8192x1_S8192 (ix1 r)
        + Host.reduceAdd (shapeCast S8x8192 (extractStridedSlice S8x1x8192 ![0, 0, 0] a2 slices_S8x8x8192_S8x1x8192_0_0_0) shapeCasts_S8x1x8192_S8x8192)
            (constant S_ .f32 0#32) reducesTo_S8x8192_S8192_d0 h_S_ (ix1 r))
      + shapeCast S8192 a3 shapeCasts_S8192x1_S8192 (ix1 r) = _
  rw [cast_col_apply, cast_col_apply, col_apply, h1, h3, Finset.sum_congr rfl fun a _ => h2 a 0 r, ← Cert.NPairSpec.colSum_eq]
  rfl

/-- A row's index is its one coordinate. -/
def idxEquiv1 : S8192.Idx ≃ Fin 8192 where
  toFun j := j 0
  invFun r := ix1 r
  left_inv j := (eq_ix1 j).symm
  right_inv _ := rfl

/-- The host's sum of a row of 8192 entries from the float zero is the sum of its entries. -/
theorem reduce_all_apply (y : FVec Ideal S8192 .f32) (i : S_.Idx) :
    Host.reduceAdd y (constant S_ .f32 0#32) reducesTo_S8192_S_d0 h_S_ i = ∑ r : Fin 8192, y (ix1 r) := by
  simp only [Host.reduceAdd, Ideal.hostReduceAdd_def]
  refine (Ideal.hostReduceAdd_total reducesTo_S8192_S_d0 (fun b => b.elim0) y _ i).trans ?_
  show Ideal.ofBits .f32 0x00000000#32 + _ = _
  rw [Ideal.ofBits_zero_f32, zero_add]
  exact Fintype.sum_equiv idxEquiv1 _ _ fun j => congrArg y (eq_ix1 j)

/-- The host operations after the region compute the loss from the row sums, the partial column sums and the diagonal. -/
theorem tail_eq (x : Cert.NPairSpec.Mat) (a1 : FVec Ideal S8192x1 .f32) (a2 : FVec Ideal S8x8x8192 .f32) (a3 : FVec Ideal S8192x1 .f32)
    (h1 : ∀ r : Fin 8192, a1 (ix2 r (0 : Fin 1)) = Cert.NPairSpec.rowSum x r)
    (h2 : ∀ (a : Fin 8) (s : Fin 8) (col : Fin 8192), a2 (ix3 a s col) = Cert.NPairSpec.colPart x a col)
    (h3 : ∀ r : Fin 8192, a3 (ix2 r (0 : Fin 1)) = x (ix2 r r)) :
    tail a1 a2 a3 = fun _ => Cert.NPairSpec.loss x := by
  funext i
  rw [tail_eq_pre]
  show Ideal.div (Host.reduceAdd (mulf (pre a1 a2 a3) (pre a1 a2 a3)) (constant S_ .f32 0#32) reducesTo_S8192_S_d0 h_S_ i)
      (Ideal.ofBits .f32 0x46800000#32) = _
  rw [reduce_all_apply]
  unfold Cert.NPairSpec.loss
  refine congrArg (fun s => Ideal.div s Cert.NPairSpec.twoBn) (Finset.sum_congr rfl fun r _ => ?_)
  show pre a1 a2 a3 (ix1 r) * pre a1 a2 a3 (ix1 r) = _
  rw [pre_apply x a1 a2 a3 h1 h2 h3 r]

end Cert.KernelIdeal.Tail

end
-- ==== Proof.KernelIdealValue.lean ====
/-
  The kernel program's run, read: its one result is the loss of its argument.

  The run of the whole program leaves each of the three arrays of the region at what the write-backs
  give — the finished row sums, partial column sums and diagonal — and the result buffer at the host
  operations after the region applied to those arrays, which is the loss.
-/
import proofs.«157649_j58007828300256_2_alg».proof.Proof.KernelIdealArrays
import proofs.«157649_j58007828300256_2_alg».proof.Proof.KernelTail

set_option maxRecDepth 16384

noncomputable section

namespace Cert.KernelIdeal.Body

open Cert.KernelIdeal Cert.KernelIdeal.Gen Cert.NPairSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The host operations after the region, applied to the three finished arrays, give the loss. -/
theorem tail_value (c : Dev nD) :
    Pipeline.afterTail₀ cfgs (dats m) 0 (V0 m) [hostOps1] c main_v11 = fun _ => loss (X m c) := by
  have w1 : Pipeline.withArrays (cfgs 0).spec c (V0 m c) (fun w => (dats m 0 c).arrAt w (cfgs 0).N) (Proc.devRef .tc main_v0_0) = G1 m c :=
    (Pipeline.withArrays_arr spec0 launch0.win.arr_inj c _ _ 1).trans (final1 m c)
  have w2 : Pipeline.withArrays (cfgs 0).spec c (V0 m c) (fun w => (dats m 0 c).arrAt w (cfgs 0).N) (Proc.devRef .tc main_v0_1) = G2 m c :=
    (Pipeline.withArrays_arr spec0 launch0.win.arr_inj c _ _ 2).trans (final2 m c)
  have w3 : Pipeline.withArrays (cfgs 0).spec c (V0 m c) (fun w => (dats m 0 c).arrAt w (cfgs 0).N) (Proc.devRef .tc main_v0_2) = G3 m c :=
    (Pipeline.withArrays_arr spec0 launch0.win.arr_inj c _ _ 3).trans (final3 m c)
  unfold Pipeline.afterTail₀
  show StableHlo.after hostOps1 _ (Proc.devRef .tc main_v11) = _
  after_results
  rw [w1, w2, w3]
  exact Cert.KernelIdeal.Tail.tail_eq (X m c) (G1 m c) (G2 m c) (G3 m c) (fun r => rfl) (fun a s col => rfl) (fun r => rfl)

/-- The result buffer is no array of the pipeline. -/
theorem v11_rest : main_v11 ∈ Pipeline.restRefs sig (cfgs 0).spec :=
  Pipeline.mem_restRefs_of main_v11 rfl (fun w => by fin_cases w <;> decide)

/-- Every weakly fair execution terminates with the result at the loss of the argument and the argument unchanged. -/
theorem run : θ_run defs (onTc (τ := τ) (main (F := Ideal))) ⟨m, fun _ => 0, ρ⟩ fun r => ∀ c : Dev nD,
      r.2.mem ((c.tc : Thread nD τ).loc main_v11) = (fun _ => loss (m ((c.tc : Thread nD τ).loc main_arg0)))
      ∧ r.2.mem ((c.tc : Thread nD τ).loc main_arg0) = m ((c.tc : Thread nD τ).loc main_arg0) :=
  (θ_run defs _ _).mono (fun r h c => ⟨((h c).2 main_v11 v11_rest).trans (tail_value m c),
      ((h c).1 0).trans (((dats m 0 c).arrAt_in 0 rfl _).trans ((A_eq m c 0).trans (V_main_arg0 m c)))⟩)
    (run_main m ρ)

end Cert.KernelIdeal.Body

end
-- ==== Proof.RefIndex.lean ====
import proofs.«157649_j58007828300256_2_alg».proof.Proof.Gen.ReferenceIdeal.Read
import Idealize.ShloMosaic.Lib.ValueIdx
import Idealize.ShloMosaic.Lib.Pipeline.Value
import Idealize.ShloMosaic.Lib.DynamicIndex

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-! ## The index vectors

Both index arrays of the program are built the same way: the row number `r`, as a 32-bit word, is sent to
`r + 8192` if it is negative when read signed, and kept otherwise; two copies of the resulting column are put side
by side.  A row number is below `8192 < 2 ^ 31`, so it is never negative: row `r` of either array is `(r, r)`. -/

/-- A number below `2 ^ 31`, as a 32-bit word, is not negative: the selection keeps it. -/
theorem select_slt_zero_ofNat (n : Nat) (hn : n < 2 ^ 31) (a : BitVec 32) :
    Scalar.select (IntOp.cmpi .slt (BitVec.ofNat 32 n) 0#32) a (BitVec.ofNat 32 n) = BitVec.ofNat 32 n := by
  have hlt : (BitVec.ofNat 32 n).slt 0#32 = false := by
    simp only [BitVec.slt, BitVec.toInt_zero, decide_eq_false_iff_not, Int.not_lt]
    rw [toInt_ofNat_of_lt hn]; omega
  show (if BitVec.ofBool ((BitVec.ofNat 32 n).slt 0#32) = 1 then _ else _) = _
  rw [hlt]
  rfl

/-- The normalised row number at row `r` is `r` (first index array, first column). -/
theorem val_main_v5_ix1 (r : Fin 8192) : val_main_v5 (F := F) (ix1 r) = BitVec.ofNat 32 r.val := by
  rw [val_main_v5_apply, val_main_v2_apply, val_main_v0_apply, val_main_v1_apply, val_main_c_apply]
  exact select_slt_zero_ofNat r.val (by have := r.isLt; omega) _

/-- The normalised row number at row `r` is `r` (first index array, second column). -/
theorem val_main_v10_ix1 (r : Fin 8192) : val_main_v10 (F := F) (ix1 r) = BitVec.ofNat 32 r.val := by
  rw [val_main_v10_apply, val_main_v7_apply, val_main_v0_apply, val_main_v6_apply, val_main_c_1_apply]
  exact select_slt_zero_ofNat r.val (by have := r.isLt; omega) _

/-- The normalised row number at row `r` is `r` (second index array, first column). -/
theorem val_main_v19_ix1 (r : Fin 8192) : val_main_v19 (F := F) (ix1 r) = BitVec.ofNat 32 r.val := by
  rw [val_main_v19_apply, val_main_v16_apply, val_main_v0_apply, val_main_v15_apply, val_main_c_3_apply]
  exact select_slt_zero_ofNat r.val (by have := r.isLt; omega) _

/-- The normalised row number at row `r` is `r` (second index array, second column). -/
theorem val_main_v24_ix1 (r : Fin 8192) : val_main_v24 (F := F) (ix1 r) = BitVec.ofNat 32 r.val := by
  rw [val_main_v24_apply, val_main_v21_apply, val_main_v0_apply, val_main_v20_apply, val_main_c_5_apply]
  exact select_slt_zero_ofNat r.val (by have := r.isLt; omega) _

end Cert.ReferenceIdeal.RefValue

end
-- ==== Proof.RefRows.lean ====
import proofs.«157649_j58007828300256_2_alg».proof.Proof.Gen.ReferenceIdeal.Read
import proofs.«157649_j58007828300256_2_alg».proof.Proof.RefIndex
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-! ## Rows of the two index arrays

Each index array is two copies of the column of normalised row numbers, joined along the second axis: its entry
`(r, 0)` comes from the first copy at `(r, 0)`, its entry `(r, 1)` from the second copy at `(r, 0)`; both are `r`. -/

/-- The column index `(r, 0)` reads the vector of row numbers at `r`. -/
theorem idx_col (r : Fin 8192) (c : Fin 1) :
    (fun a => match a with | ⟨0, _⟩ => ⟨((ix2 r c : S8192x1.Idx) 0).val, ((ix2 r c : S8192x1.Idx) 0).isLt⟩ : S8192.Idx) = ix1 r := by
  funext a; match a with | ⟨0, _⟩ => rfl

/-- A two-column join at column 0 is its first piece at `(r, 0)`. -/
theorem concat_col0 {α : Type} (x₁ x₂ : S8192x1.Idx → α) (r : Fin 8192) :
    concatenate S8192x2 1 [⟨S8192x1, x₁⟩, ⟨S8192x1, x₂⟩] concatenates_S8192x1_S8192x1_S8192x2_d1 (ix2 r (0 : Fin 2))
      = x₁ (ix2 r (0 : Fin 1)) :=
  concatenate_pair_apply_left (t := S8192x2) (s₁ := S8192x1) (s₂ := S8192x1) 1 x₁ x₂
    concatenates_S8192x1_S8192x1_S8192x2_d1 (ix2 r (0 : Fin 2)) rfl (ix2 r (0 : Fin 1))
    (fun b => match b with | ⟨0, _⟩ => rfl | ⟨1, _⟩ => rfl)

/-- A two-column join at column 1 is its second piece at `(r, 0)`. -/
theorem concat_col1 {α : Type} (x₁ x₂ : S8192x1.Idx → α) (r : Fin 8192) :
    concatenate S8192x2 1 [⟨S8192x1, x₁⟩, ⟨S8192x1, x₂⟩] concatenates_S8192x1_S8192x1_S8192x2_d1 (ix2 r (1 : Fin 2))
      = x₂ (ix2 r (0 : Fin 1)) :=
  concatenate_pair_apply_right (t := S8192x2) (s₁ := S8192x1) (s₂ := S8192x1) 1 x₁ x₂
    concatenates_S8192x1_S8192x1_S8192x2_d1 (ix2 r (1 : Fin 2)) rfl rfl (ix2 r (0 : Fin 1))
    (fun b => match b with | ⟨0, _⟩ => fun _ => rfl | ⟨1, _⟩ => fun h => absurd rfl h)
    rfl

/-- Row `r` of the first index array is `(r, r)`: its first entry … -/
theorem val_main_v13_col0 (r : Fin 8192) : val_main_v13 (F := F) (ix2 r (0 : Fin 2)) = BitVec.ofNat 32 r.val := by
  unfold val_main_v13
  rw [concat_col0, val_main_v11_apply]
  exact val_main_v5_ix1 r

/-- … and its second. -/
theorem val_main_v13_col1 (r : Fin 8192) : val_main_v13 (F := F) (ix2 r (1 : Fin 2)) = BitVec.ofNat 32 r.val := by
  unfold val_main_v13
  rw [concat_col1, val_main_v12_apply]
  exact val_main_v10_ix1 r

/-- Row `r` of the second index array is `(r, r)`: its first entry … -/
theorem val_main_v27_col0 (r : Fin 8192) : val_main_v27 (F := F) (ix2 r (0 : Fin 2)) = BitVec.ofNat 32 r.val := by
  unfold val_main_v27
  rw [concat_col0, val_main_v25_apply]
  exact val_main_v19_ix1 r

/-- … and its second. -/
theorem val_main_v27_col1 (r : Fin 8192) : val_main_v27 (F := F) (ix2 r (1 : Fin 2)) = BitVec.ofNat 32 r.val := by
  unfold val_main_v27
  rw [concat_col1, val_main_v26_apply]
  exact val_main_v24_ix1 r

end Cert.ReferenceIdeal.RefValue

end
-- ==== Proof.RefGather.lean ====
import proofs.«157649_j58007828300256_2_alg».proof.Proof.Gen.ReferenceIdeal.Read
import proofs.«157649_j58007828300256_2_alg».proof.Proof.RefRows
import Idealize.ShloMosaic.Lib.ValueIdx
import Idealize.ShloMosaic.Lib.DynamicIndex

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-! ## The diagonal, gathered

The gather reads, for result entry `r`, the operand at the index whose two coordinates are the two entries of row
`r` of the index array, each read as a signed integer and clamped into `[0, 8191]`; there is no batching axis and
both operand axes are collapsed, so nothing is added to them.  Row `r` is `(r, r)` and `r ≤ 8191`: the entry read is
the diagonal entry `(r, r)`. -/

/-- The program's gather dimension numbers. -/
abbrev gd : GatherDims S8192x8192 S8192x2 S8192 := gather_S8192x8192_S8192x2_S8192_n_01_n_n_01_1_11

/-- A row number, as a 32-bit word read signed, clamped to `8191`, is itself. -/
theorem clamp_row (r : Fin 8192) : min (BitVec.ofNat 32 r.val).toInt.toNat (8192 - 1) = r.val := by
  rw [toInt_ofNat_of_lt (by have := r.isLt; omega)]
  have := r.isLt
  omega

/-- The index-array position read for the first operand axis at result entry `r` is `(r, 0)`. -/
theorem gd_siIdx0 (r : Fin 8192) :
    gd.siIdx (ix1 r) ⟨List.idxOf (0 : Fin 2) gd.startIndexMap, List.idxOf_lt_length_iff.2 (by decide)⟩ = ix2 r (0 : Fin 2) := by
  funext b; refine Fin.ext ?_
  match b with
  | ⟨0, _⟩ => rfl
  | ⟨1, _⟩ => rfl

/-- The index-array position read for the second operand axis at result entry `r` is `(r, 1)`. -/
theorem gd_siIdx1 (r : Fin 8192) :
    gd.siIdx (ix1 r) ⟨List.idxOf (1 : Fin 2) gd.startIndexMap, List.idxOf_lt_length_iff.2 (by decide)⟩ = ix2 r (1 : Fin 2) := by
  funext b; refine Fin.ext ?_
  match b with
  | ⟨0, _⟩ => rfl
  | ⟨1, _⟩ => rfl

/-- The operand index of result entry `r` has first coordinate `r` … -/
theorem gd_operand0 (r : Fin 8192) : (gd.operandIdx (ix1 r) (val_main_v13 (F := F)) (0 : Fin 2)).val = r.val := by
  show gd.start (ix1 r) (val_main_v13 (F := F)) (0 : Fin 2) + gd.batchCoord (ix1 r) (0 : Fin 2) + gd.offCoord (ix1 r) (0 : Fin 2) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gd.startIndexMap by decide), gd_siIdx0, val_main_v13_col0]
  exact clamp_row r

/-- … and second coordinate `r`. -/
theorem gd_operand1 (r : Fin 8192) : (gd.operandIdx (ix1 r) (val_main_v13 (F := F)) (1 : Fin 2)).val = r.val := by
  show gd.start (ix1 r) (val_main_v13 (F := F)) (1 : Fin 2) + gd.batchCoord (ix1 r) (1 : Fin 2) + gd.offCoord (ix1 r) (1 : Fin 2) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gd.startIndexMap by decide), gd_siIdx1, val_main_v13_col1]
  exact clamp_row r

/-- The gather at result entry `r` reads the diagonal entry `(r, r)`. -/
theorem val_main_v14_ix1 (x : (⟨S8192x8192, .f32⟩ : BufTy).Contents (Elt F)) (r : Fin 8192) :
    val_main_v14 (F := F) x (ix1 r) = x (ix2 r r) := by
  unfold val_main_v14 Host.gather
  refine congrArg x (funext fun a => Fin.ext ?_)
  match a with
  | ⟨0, _⟩ => exact gd_operand0 r
  | ⟨1, _⟩ => exact gd_operand1 r

end Cert.ReferenceIdeal.RefValue

end
-- ==== Proof.RefScatterFold.lean ====
import Idealize.ShloMosaic.PureOps.ShapeOps

noncomputable section

namespace Cert.ReferenceIdeal.RefValue

open Idealize.ShloMosaic

/-! ## A scatter that writes one value

A scatter whose update function keeps the update (`fun _ b => b`) and whose updates are all the same value `c`
leaves, at an operand index `i'`, the value `c` if some update lands on `i'` and the operand's own entry if none
does: the order in which the updates are applied does not matter, because they all write the same thing.  The scatter
is a left fold over the update positions; the two facts are proved for a fold over any list of positions. -/

section Fold
variable {ι κ α : Type} (g : κ → Option ι) (c : α) (step : (ι → α) → κ → (ι → α))

/-- A fold of steps none of which lands on `i'` leaves the entry at `i'` as it was. -/
theorem foldl_miss (hnone : ∀ r n, g n = none → step r n = r)
    (hne : ∀ r n i i', g n = some i → i' ≠ i → step r n i' = r i') :
    ∀ (l : List κ) (x : ι → α) (i' : ι), (∀ n ∈ l, g n ≠ some i') → l.foldl step x i' = x i'
  | [], _, _, _ => rfl
  | n :: l, x, i', h => by
    rw [List.foldl_cons, foldl_miss hnone hne l (step x n) i' (fun m hm => h m (List.mem_cons_of_mem _ hm))]
    cases hg : g n with
    | none => rw [hnone x n hg]
    | some i =>
      refine hne x n i i' hg fun e => h n List.mem_cons_self ?_
      rw [hg, e]

/-- A fold of steps one of which lands on `i'` leaves `c` there. -/
theorem foldl_hit (hnone : ∀ r n, g n = none → step r n = r)
    (heq : ∀ r n i, g n = some i → step r n i = c)
    (hne : ∀ r n i i', g n = some i → i' ≠ i → step r n i' = r i') :
    ∀ (l : List κ) (x : ι → α) (i' : ι), (∃ n ∈ l, g n = some i') → l.foldl step x i' = c
  | [], _, _, h => by obtain ⟨n, hn, _⟩ := h; cases hn
  | n :: l, x, i', h => by
    rw [List.foldl_cons]
    by_cases hl : ∃ m ∈ l, g m = some i'
    · exact foldl_hit hnone heq hne l (step x n) i' hl
    · have hn : g n = some i' := by
        obtain ⟨m, hm, hgm⟩ := h
        rcases List.mem_cons.1 hm with rfl | hm'
        · exact hgm
        · exact absurd ⟨m, hm', hgm⟩ hl
      rw [foldl_miss g step hnone hne l (step x n) i' (fun m hm hgm => hl ⟨m, hm, hgm⟩)]
      exact heq x n i' hn

end Fold

section Scatter
variable {α : Type} {s si u : Shape} {w : Nat} (d : ScatterDims s si u) (x : s.Idx → α) (idx : IVec si w)
  (upd : u.Idx → α) (c : α)

/-- Where no update lands, the scatter keeps the operand's entry. -/
theorem scatter_set_miss (i' : s.Idx) (h : ∀ j, d.resultIdx? j idx ≠ some i') :
    Host.scatter d (fun _ b => b) x idx upd i' = x i' := by
  unfold Host.scatter
  refine foldl_miss (fun n => d.resultIdx? (u.rowMajor.symm n) idx) _ ?_ ?_ _ x i' (fun n _ => h _)
  · intro r n hg
    simp only [hg]
  · intro r n i i'' hg hi
    simp only [hg]
    exact if_neg hi

/-- Where an update lands, the scatter leaves the common value of the updates. -/
theorem scatter_set_hit (hupd : ∀ j, upd j = c) (i' : s.Idx) (j : u.Idx) (hj : d.resultIdx? j idx = some i') :
    Host.scatter d (fun _ b => b) x idx upd i' = c := by
  unfold Host.scatter
  refine foldl_hit (fun n => d.resultIdx? (u.rowMajor.symm n) idx) c _ ?_ ?_ ?_ _ x i'
    ⟨u.rowMajor j, List.mem_finRange _, by rw [Equiv.symm_apply_apply]; exact hj⟩
  · intro r n hg
    simp only [hg]
  · intro r n i hg
    simp only [hg]
    rw [if_pos trivial]
    exact hupd _
  · intro r n i i'' hg hi
    simp only [hg]
    exact if_neg hi

end Scatter

end Cert.ReferenceIdeal.RefValue

end
-- ==== Proof.RefScatter.lean ====
import proofs.«157649_j58007828300256_2_alg».proof.Proof.Gen.ReferenceIdeal.Read
import proofs.«157649_j58007828300256_2_alg».proof.Proof.RefRows
import proofs.«157649_j58007828300256_2_alg».proof.Proof.RefScatterFold
import Idealize.ShloMosaic.Lib.ValueIdx
import Idealize.ShloMosaic.Lib.DynamicIndex

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-! ## The matrix with its diagonal overwritten

The scatter takes update `r` (all updates are the float word zero) to the operand index whose two coordinates are the
two entries of row `r` of the index array, read as signed integers and not clamped; both operand axes are inserted
window axes, so no window coordinate is added.  Row `r` is `(r, r)`, which is inside the operand: update `r` lands on
the diagonal entry `(r, r)`.  So the diagonal entries receive the common update value and every other entry is kept. -/

/-- The program's scatter dimension numbers. -/
abbrev sd : ScatterDims S8192x8192 S8192x2 S8192 := scatter_S8192x8192_S8192x2_S8192_n_01_01_1

/-- The index-array position read for the first operand axis at update `r` is `(r, 0)`. -/
theorem sd_siIdx0 (r : Fin 8192) :
    sd.siIdx (ix1 r) ⟨List.idxOf (0 : Fin 2) sd.scatterDimsToOperandDims, List.idxOf_lt_length_iff.2 (by decide)⟩
      = ix2 r (0 : Fin 2) := by
  funext b; refine Fin.ext ?_
  match b with
  | ⟨0, _⟩ => rfl
  | ⟨1, _⟩ => rfl

/-- The index-array position read for the second operand axis at update `r` is `(r, 1)`. -/
theorem sd_siIdx1 (r : Fin 8192) :
    sd.siIdx (ix1 r) ⟨List.idxOf (1 : Fin 2) sd.scatterDimsToOperandDims, List.idxOf_lt_length_iff.2 (by decide)⟩
      = ix2 r (1 : Fin 2) := by
  funext b; refine Fin.ext ?_
  match b with
  | ⟨0, _⟩ => rfl
  | ⟨1, _⟩ => rfl

/-- Update `r` starts at row `r` … -/
theorem sd_start0 (r : Fin 8192) : sd.start (ix1 r) (val_main_v27 (F := F)) (0 : Fin 2) = (r.val : Int) := by
  unfold ScatterDims.start
  rw [dif_pos (show (0 : Fin 2) ∈ sd.scatterDimsToOperandDims by decide), sd_siIdx0, val_main_v27_col0]
  exact toInt_ofNat_of_lt (by have := r.isLt; omega)

/-- … and column `r`. -/
theorem sd_start1 (r : Fin 8192) : sd.start (ix1 r) (val_main_v27 (F := F)) (1 : Fin 2) = (r.val : Int) := by
  unfold ScatterDims.start
  rw [dif_pos (show (1 : Fin 2) ∈ sd.scatterDimsToOperandDims by decide), sd_siIdx1, val_main_v27_col1]
  exact toInt_ofNat_of_lt (by have := r.isLt; omega)

/-- No operand axis is a window axis: the window coordinate is zero on the first axis … -/
theorem sd_window0 (j : S8192.Idx) : sd.window j (0 : Fin 2) = 0 := by
  unfold ScatterDims.window
  rw [dif_neg (by decide)]

/-- … and on the second. -/
theorem sd_window1 (j : S8192.Idx) : sd.window j (1 : Fin 2) = 0 := by
  unfold ScatterDims.window
  rw [dif_neg (by decide)]

/-- On either axis the landing coordinate of update `r` is `r`. -/
theorem sd_land (r : Fin 8192) (a : Fin 2) :
    sd.start (ix1 r) (val_main_v27 (F := F)) a + ((sd.window (ix1 r) a : Nat) : Int) = (r.val : Int) := by
  match a with
  | ⟨0, _⟩ => exact (congrArg₂ (· + ·) (sd_start0 r) (congrArg Nat.cast (sd_window0 (ix1 r)))).trans (by simp)
  | ⟨1, _⟩ => exact (congrArg₂ (· + ·) (sd_start1 r) (congrArg Nat.cast (sd_window1 (ix1 r)))).trans (by simp)

/-- Both operand axes have extent `8192`. -/
theorem size_sq (a : Fin 2) : S8192x8192.size a = 8192 := by
  match a with
  | ⟨0, _⟩ => rfl
  | ⟨1, _⟩ => rfl

/-- Update `r` lands on the diagonal entry `(r, r)`. -/
theorem sd_resultIdx (r : Fin 8192) : sd.resultIdx? (ix1 r) (val_main_v27 (F := F)) = some (ix2 r r) := by
  unfold ScatterDims.resultIdx?
  rw [dif_pos (fun a => by
    rw [sd_land r a, size_sq a]
    have := r.isLt
    constructor <;> omega)]
  refine congrArg some (funext fun a => Fin.ext ?_)
  show (sd.start (ix1 r) (val_main_v27 (F := F)) a + ((sd.window (ix1 r) a : Nat) : Int)).toNat = _
  rw [sd_land r a, Int.toNat_natCast]
  match a with
  | ⟨0, _⟩ => rfl
  | ⟨1, _⟩ => rfl

/-- THE SCATTER READ AT `(i, k)`: the float word zero on the diagonal, the operand's entry elsewhere. -/
theorem val_main_v29_ix2 (x : (⟨S8192x8192, .f32⟩ : BufTy).Contents (Elt F)) (i k : Fin 8192) :
    val_main_v29 (F := F) x (ix2 i k) = if i = k then FloatOps.ofBits .f32 0x00000000#32 else x (ix2 i k) := by
  unfold val_main_v29
  by_cases h : i = k
  · subst h
    rw [if_pos rfl]
    exact scatter_set_hit sd x (val_main_v27 (F := F)) (val_main_v28 (F := F)) _
      (fun j => by rw [val_main_v28_apply, val_main_cst_apply]) (ix2 i i) (ix1 i) (sd_resultIdx i)
  · rw [if_neg h]
    refine scatter_set_miss sd x (val_main_v27 (F := F)) (val_main_v28 (F := F)) (ix2 i k) (fun j hj => h ?_)
    obtain ⟨r, rfl⟩ : ∃ r : Fin 8192, j = ix1 r := ⟨j 0, eq_ix1 j⟩
    rw [sd_resultIdx] at hj
    have e := Option.some.inj hj
    have e0 : r = i := congrFun e (0 : Fin 2)
    have e1 : r = k := congrFun e (1 : Fin 2)
    exact e0.symm.trans e1

end Cert.ReferenceIdeal.RefValue

end
-- ==== Proof.RefEntry.lean ====
import proofs.«157649_j58007828300256_2_alg».proof.Proof.Gen.ReferenceIdeal.Read
import proofs.«157649_j58007828300256_2_alg».proof.Proof.Spec
import proofs.«157649_j58007828300256_2_alg».proof.Proof.RefGather
import proofs.«157649_j58007828300256_2_alg».proof.Proof.RefScatter
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.NPairSpec

/-! ## One entry of the exponential matrix, and one term of the loss

Over the extended reals every operation of the program is its textbook one.  Entry `(i, k)` of the exponential matrix
is `exp (1 - B i k)` with `B` the operand with a zero diagonal; the row sum at `r` runs over the entries `(r, k)`,
the column sum over the entries `(k, r)`; term `r` of the loss is the square of
`log (row sum + column sum) + x r r`. -/

/-- The entries a row sum at `r` reads are `(r, k)`. -/
theorem idx_row (r k : Fin 8192) : idx_main_v33 (ix1 r) k = ix2 r k := by
  funext a; match a with | ⟨0, _⟩ => rfl | ⟨1, _⟩ => rfl

/-- The entries a column sum at `r` reads are `(k, r)`. -/
theorem idx_col_sum (r k : Fin 8192) : idx_main_v34 (ix1 r) k = ix2 k r := by
  funext a; match a with | ⟨0, _⟩ => rfl | ⟨1, _⟩ => rfl

/-- Entry `(i, k)` of the exponential matrix is the specification's `E x i k`. -/
theorem val_main_v32_ix2 (x : (⟨S8192x8192, .f32⟩ : BufTy).Contents (Elt Ideal)) (i k : Fin 8192) :
    val_main_v32 (F := Ideal) x (ix2 i k) = E x i k := by
  rw [val_main_v32_apply, val_main_v31_apply, val_main_v30_apply, val_main_cst_7_apply, val_main_v29_ix2]
  simp only [Ideal.hostUnary_exp_def, Ideal.subf_def, Ideal.ofBits_def, Ideal.ofBits_zero_f32]
  rfl

/-- Term `r` of the loss: the square of `log (row sum + column sum) + x r r`. -/
theorem val_main_v38_ix1 (x : (⟨S8192x8192, .f32⟩ : BufTy).Contents (Elt Ideal)) (r : Fin 8192) :
    val_main_v38 (F := Ideal) x (ix1 r) = term x r * term x r := by
  rw [val_main_v38_apply, val_main_v37_apply, val_main_v36_apply, val_main_v35_apply, val_main_v33_apply,
    val_main_v34_apply, val_main_v14_ix1, val_main_cst_8_apply, val_main_cst_9_apply]
  simp only [Ideal.mulf_def, Ideal.addf_def, Ideal.hostUnary_log_def, Ideal.ofBits_def, Ideal.ofBits_zero_f32, zero_add,
    idx_row, idx_col_sum, val_main_v32_ix2]
  rfl

end Cert.ReferenceIdeal.RefValue

end
-- ==== Proof.RefValue.lean ====
import proofs.«157649_j58007828300256_2_alg».proof.Proof.Gen.ReferenceIdeal.Read
import proofs.«157649_j58007828300256_2_alg».proof.Proof.Spec
import proofs.«157649_j58007828300256_2_alg».proof.Proof.RefEntry
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.NPairSpec

/-! ## The reference's result is the specification's loss

The last two operations sum the terms over all rows and divide by the float `16384`.  A sum over the rank-1 index set
is the sum over its one coordinate. -/

/-- A rank-1 index set is its coordinate's range … -/
def idxEquiv1 {n : Nat} : (⟨1, ![n]⟩ : Shape).Idx ≃ Fin n where
  toFun j := j 0
  invFun r := ix1 r
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ r : Fin n, f (ix1 r) := by
  rw [← Equiv.sum_comp (idxEquiv1 (n := n)).symm f]
  rfl

/-- THE REFERENCE'S VALUE: the program's result, at every index of the scalar shape, is the specification's loss. -/
theorem result_eq (x : (⟨Cert.ReferenceIdeal.S8192x8192, .f32⟩ : BufTy).Contents (Elt Ideal)) :
    Cert.ReferenceIdeal.Read.val_main_v40 (F := Ideal) x = fun _ => Cert.NPairSpec.loss x := by
  funext i
  rw [val_main_v40_apply, val_main_v39_apply, val_main_cst_10_apply, val_main_cst_11_apply, sum_idx1]
  simp only [Ideal.hostDivf_def, Ideal.ofBits_def, Ideal.ofBits_zero_f32, zero_add, val_main_v38_ix1]
  rfl

end Cert.ReferenceIdeal.RefValue

end
-- ==== Proof.lean ====
/-
  The n-pair loss kernel computes the same extended real as its reference.

  Both programs take a square matrix `x` of side 8192 and return
    `(∑ i, (log (∑ k, E i k + ∑ k, E k i) + x i i)²) / 16384`, `E = exp (1 - B)`, `B` = `x` with a zero diagonal.
  The reference computes `E` whole, by a scatter of zeros onto the diagonal, and reads the diagonal by a gather.
  The kernel walks an 8 × 8 grid of tiles of side 1024: within a row of tiles it adds each tile's row sums
  and masked diagonal sums into two column accumulators and the tile's column sums into the tile's own 1024
  columns of a third; the eight rows of tiles give eight partial column sums that the host adds at the end.
  Over the extended reals a sum does not depend on how it is grouped, the masked row sum of a row is its
  diagonal entry, and the mask built from the tile coordinates is the diagonal mask: so the two results are
  equal, with no use of the finiteness of the input.  The kernel program's frame is proved from its body,
  run symbolically once for the first tile of a row of tiles and once for a later tile, at both instances.
-/
import proofs.«157649_j58007828300256_2_alg».proof.Defs
import proofs.«157649_j58007828300256_2_alg».proof.Proof.Gen.Kernel
import proofs.«157649_j58007828300256_2_alg».proof.Proof.Gen.KernelIdeal
import proofs.«157649_j58007828300256_2_alg».proof.Proof.Gen.ReferenceIdeal
import proofs.«157649_j58007828300256_2_alg».proof.Proof.Gen.ReferenceIdeal.Run
import proofs.«157649_j58007828300256_2_alg».proof.Proof.Gen.ReferenceIdeal.Read
import proofs.«157649_j58007828300256_2_alg».proof.Proof.Gen.Pre_finite_inputs
import proofs.«157649_j58007828300256_2_alg».proof.Proof.KernelBody
import proofs.«157649_j58007828300256_2_alg».proof.Proof.KernelIdealValue
import proofs.«157649_j58007828300256_2_alg».proof.Proof.RefValue
import Idealize.ShloMosaic.Adequacy
import Idealize.ShloMosaic.Init

noncomputable section

namespace Cert.Proof

open Idealize.ShloMosaic Idealize.SL.Sem

/-- The word-level kernel program runs and leaves its argument alone. -/
theorem frame_k : Cert.frame_Kernel (hKernel := Cert.Kernel.Gen.facts) (hPre_finite_inputs := Cert.Pre_finite_inputs.Gen.facts) :=
  fun m ρ _ => Cert.Kernel.Body.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- And the idealized reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the loss of the argument they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.NPairSpec.loss (m ((c.tc : Thread Cert.KernelIdeal.nD Cert.KernelIdeal.τ).loc Cert.KernelIdeal.main_arg0)),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.result_eq, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
